-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S1200000 : Shape := ⟨1, ![1200000]⟩
abbrev S10000x32 : Shape := ⟨2, ![10000, 32]⟩
abbrev S32x64 : Shape := ⟨2, ![32, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S10000x32 : S_.BroadcastsInDim S10000x32 (![] : Fin 0 → Fin S10000x32.rank)
  reducesTo_S10000x32_S_d0_1 : S10000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg11 : FVec F S64x10 .f32) (main_arg12 : FVec F S10 .f32) (main_v33 : IVec S_ 1) : IVec S_ 1 :=
  let main_v34 : FVec F S64x10 .f32 := Host.absf main_arg11
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg12
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg8 : FVec F S64x64 .f32) (main_arg9 : FVec F S64 .f32) (main_arg10 : FVec F S64x64 .f32) (main_arg11 : FVec F S64x10 .f32) (main_arg12 : FVec F S10 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg10
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg11 main_arg12 main_v33

def fn {F : FTy → Type} [FloatOps F] (main_arg0 : IVec S100000 32) (main_arg1 : IVec S1200000 32) (main_arg2 : IVec S1200000 32) (main_arg3 : IVec S100000 32) (main_arg4 : FVec F S10000x32 .f32) (main_arg5 : FVec F S32x64 .f32) (main_arg6 : FVec F S64 .f32) (main_arg7 : FVec F S32x64 .f32) (main_arg8 : FVec F S64x64 .f32) (main_arg9 : FVec F S64 .f32) (main_arg10 : FVec F S64x64 .f32) (main_arg11 : FVec F S64x10 .f32) (main_arg12 : FVec F S10 .f32) : IVec S_ 1 :=
  let main_v0 : FVec F S10000x32 .f32 := Host.absf main_arg4
  let main_cst : FVec F S_ .f32 := constant S_ .f32 0x7F800000#32
  let main_v1 : FVec F S10000x32 .f32 := broadcastInDim S10000x32 ![] bcast_S_S10000x32 main_cst
  let main_v2 : IVec S10000x32 1 := cmpf .olt main_v0 main_v1
  let main_c : IVec S_ 1 := constantI S_ 1 1#1
  let main_v3 : IVec S_ 1 := (fun x v => Host.reduce IntOp.andi x v reducesTo_S10000x32_S_d0_1 h_S_) main_v2 main_c
  let main_v4 : FVec F S32x64 .f32 := Host.absf main_arg5
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg6
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg7
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg8 main_arg9 main_arg10 main_arg11 main_arg12 main_v13 main_v16
-- ==== Kernel.lean ====
abbrev S100000 : Shape := ⟨1, ![100000]⟩
abbrev S1200000 : Shape := ⟨1, ![1200000]⟩
abbrev S10000x32 : Shape := ⟨2, ![10000, 32]⟩
abbrev S32x64 : Shape := ⟨2, ![32, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩
abbrev S100000x1 : Shape := ⟨2, ![100000, 1]⟩
abbrev S100000x32 : Shape := ⟨2, ![100000, 32]⟩
abbrev S1200000x1 : Shape := ⟨2, ![1200000, 1]⟩
abbrev S1200000x32 : Shape := ⟨2, ![1200000, 32]⟩
abbrev S1x64 : Shape := ⟨2, ![1, 64]⟩
abbrev S100000x64 : Shape := ⟨2, ![100000, 64]⟩
abbrev S1200000x64 : Shape := ⟨2, ![1200000, 64]⟩
abbrev S1024x64 : Shape := ⟨2, ![1024, 64]⟩
abbrev S1024 : Shape := ⟨1, ![1024]⟩
abbrev S1024x1 : Shape := ⟨2, ![1024, 1]⟩
abbrev S1x10 : Shape := ⟨2, ![1, 10]⟩
abbrev S1024x10 : Shape := ⟨2, ![1024, 10]⟩
abbrev S5000x32 : Shape := ⟨2, ![5000, 32]⟩
abbrev S5000x1 : Shape := ⟨2, ![5000, 1]⟩
abbrev S5000x64 : Shape := ⟨2, ![5000, 64]⟩

abbrev nBuf : Space → Nat
  | .hbm => 84
  | .vmem => 27
  | .smem => 0
  | _ => 0

abbrev bufTy : (tb : Table) → Fin (tcTables nBuf tb) → BufTy
  | .hbm, ⟨0, _⟩ => ⟨S100000, .i32⟩
  | .hbm, ⟨1, _⟩ => ⟨S1200000, .i32⟩
  | .hbm, ⟨2, _⟩ => ⟨S1200000, .i32⟩
  | .hbm, ⟨3, _⟩ => ⟨S100000, .i32⟩
  | .hbm, ⟨4, _⟩ => ⟨S10000x32, .f32⟩
  | .hbm, ⟨5, _⟩ => ⟨S32x64, .f32⟩
  | .hbm, ⟨6, _⟩ => ⟨S64, .f32⟩
  | .hbm, ⟨7, _⟩ => ⟨S32x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x10, .f32⟩
  | .hbm, ⟨12, _⟩ => ⟨S10, .f32⟩
  | .hbm, ⟨13, _⟩ => ⟨S_, .i32⟩
  | .hbm, ⟨14, _⟩ => ⟨S100000, .i32⟩
  | .hbm, ⟨15, _⟩ => ⟨S100000, .i1⟩
  | .hbm, ⟨16, _⟩ => ⟨S_, .i32⟩
  | .hbm, ⟨17, _⟩ => ⟨S100000, .i32⟩
  | .hbm, ⟨18, _⟩ => ⟨S100000, .i32⟩
  | .hbm, ⟨19, _⟩ => ⟨S100000, .i32⟩
  | .hbm, ⟨20, _⟩ => ⟨S100000x1, .i32⟩
  | .hbm, ⟨21, _⟩ => ⟨S100000x32, .f32⟩
  | .hbm, ⟨22, _⟩ => ⟨S_, .f32⟩
  | .hbm, ⟨23, _⟩ => ⟨S1200000, .f32⟩
  | .hbm, ⟨24, _⟩ => ⟨S_, .f32⟩
  | .hbm, ⟨25, _⟩ => ⟨S100000, .f32⟩
  | .hbm, ⟨26, _⟩ => ⟨S1200000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S_, .i32⟩
  | .hbm, ⟨36, _⟩ => ⟨S1200000, .i32⟩
  | .hbm, ⟨37, _⟩ => ⟨S1200000, .i1⟩
  | .hbm, ⟨38, _⟩ => ⟨S_, .i32⟩
  | .hbm, ⟨39, _⟩ => ⟨S1200000, .i32⟩
  | .hbm, ⟨40, _⟩ => ⟨S1200000, .i32⟩
  | .hbm, ⟨41, _⟩ => ⟨S1200000, .i32⟩
  | .hbm, ⟨42, _⟩ => ⟨S1200000x1, .i32⟩
  | .hbm, ⟨43, _⟩ => ⟨S1200000x32, .f32⟩
  | .hbm, ⟨44, _⟩ => ⟨S_, .f32⟩
  | .hbm, ⟨45, _⟩ => ⟨S100000x32, .f32⟩
  | .hbm, ⟨46, _⟩ => ⟨S1200000x1, .i32⟩
  | .hbm, ⟨47, _⟩ => ⟨S100000x32, .f32⟩
  | .hbm, ⟨48, _⟩ => ⟨S1x64, .f32⟩
  | .hbm, ⟨49, _⟩ => ⟨S100000x64, .f32⟩
  | .hbm, ⟨50, _⟩ => ⟨S_, .i32⟩
  | .hbm, ⟨51, _⟩ => ⟨S1200000, .i32⟩
  | .hbm, ⟨52, _⟩ => ⟨S1200000, .i1⟩
  | .hbm, ⟨53, _⟩ => ⟨S_, .i32⟩
  | .hbm, ⟨54, _⟩ => ⟨S1200000, .i32⟩
  | .hbm, ⟨55, _⟩ => ⟨S1200000, .i32⟩
  | .hbm, ⟨56, _⟩ => ⟨S1200000, .i32⟩
  | .hbm, ⟨57, _⟩ => ⟨S1200000x1, .i32⟩
  | .hbm, ⟨58, _⟩ => ⟨S1200000x64, .f32⟩
  | .hbm, ⟨59, _⟩ => ⟨S_, .f32⟩
  | .hbm, ⟨60, _⟩ => ⟨S100000x64, .f32⟩
  | .hbm, ⟨61, _⟩ => ⟨S1200000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S_, .f32⟩
  | .hbm, ⟨66, _⟩ => ⟨S1024x64, .f32⟩
  | .hbm, ⟨67, _⟩ => ⟨S100000x1, .i32⟩
  | .hbm, ⟨68, _⟩ => ⟨S1024x64, .f32⟩
  | .hbm, ⟨69, _⟩ => ⟨S_, .f32⟩
  | .hbm, ⟨70, _⟩ => ⟨S100000, .f32⟩
  | .hbm, ⟨71, _⟩ => ⟨S_, .f32⟩
  | .hbm, ⟨72, _⟩ => ⟨S1024, .f32⟩
  | .hbm, ⟨73, _⟩ => ⟨S100000x1, .i32⟩
  | .hbm, ⟨74, _⟩ => ⟨S1024, .f32⟩
  | .hbm, ⟨75, _⟩ => ⟨S_, .f32⟩
  | .hbm, ⟨76, _⟩ => ⟨S1024, .f32⟩
  | .hbm, ⟨77, _⟩ => ⟨S1024, .f32⟩
  | .hbm, ⟨78, _⟩ => ⟨S_, .f32⟩
  | .hbm, ⟨79, _⟩ => ⟨S1024, .f32⟩
  | .hbm, ⟨80, _⟩ => ⟨S1024, .f32⟩
  | .hbm, ⟨81, _⟩ => ⟨S1024x1, .f32⟩
  | .hbm, ⟨82, _⟩ => ⟨S1x10, .f32⟩
  | .hbm, ⟨83, _⟩ => ⟨S1024x10, .f32⟩
  | .local _ .vmem, ⟨0, _⟩ => ⟨S5000x32, .f32⟩
  | .local _ .vmem, ⟨1, _⟩ => ⟨S5000x32, .f32⟩
  | .local _ .vmem, ⟨2, _⟩ => ⟨S5000x1, .f32⟩
  | .local _ .vmem, ⟨3, _⟩ => ⟨S5000x1, .f32⟩
  | .local _ .vmem, ⟨4, _⟩ => ⟨S5000x32, .f32⟩
  | .local _ .vmem, ⟨5, _⟩ => ⟨S5000x32, .f32⟩
  | .local _ .vmem, ⟨6, _⟩ => ⟨S32x64, .f32⟩
  | .local _ .vmem, ⟨7, _⟩ => ⟨S1x64, .f32⟩
  | .local _ .vmem, ⟨8, _⟩ => ⟨S32x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S5000x64, .f32⟩
  | .local _ .vmem, ⟨21, _⟩ => ⟨S5000x64, .f32⟩
  | .local _ .vmem, ⟨22, _⟩ => ⟨S1024x64, .f32⟩
  | .local _ .vmem, ⟨23, _⟩ => ⟨S1024x1, .f32⟩
  | .local _ .vmem, ⟨24, _⟩ => ⟨S64x10, .f32⟩
  | .local _ .vmem, ⟨25, _⟩ => ⟨S1x10, .f32⟩
  | .local _ .vmem, ⟨26, _⟩ => ⟨S1024x10, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_cst : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_cst_2 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_c_4 : Ref sig .tc := ⟨.hbm, 35, rfl⟩
abbrev main_call0_v16 : Ref sig .tc := ⟨.hbm, 36, rfl⟩
abbrev main_call0_v17 : Ref sig .tc := ⟨.hbm, 37, rfl⟩
abbrev main_call0_c_5 : Ref sig .tc := ⟨.hbm, 38, rfl⟩
abbrev main_call0_v18 : Ref sig .tc := ⟨.hbm, 39, rfl⟩
abbrev main_call0_v19 : Ref sig .tc := ⟨.hbm, 40, rfl⟩
abbrev main_call0_v20 : Ref sig .tc := ⟨.hbm, 41, rfl⟩
abbrev main_call0_v21 : Ref sig .tc := ⟨.hbm, 42, rfl⟩
abbrev main_call0_v22 : Ref sig .tc := ⟨.hbm, 43, rfl⟩
abbrev main_call0_cst_6 : Ref sig .tc := ⟨.hbm, 44, rfl⟩
abbrev main_call0_v23 : Ref sig .tc := ⟨.hbm, 45, rfl⟩
abbrev main_call0_v24 : Ref sig .tc := ⟨.hbm, 46, rfl⟩
abbrev main_call0_v25 : Ref sig .tc := ⟨.hbm, 47, rfl⟩
abbrev main_call0_v26 : Ref sig .tc := ⟨.hbm, 48, rfl⟩
abbrev main_call0_v27 : Ref sig .tc := ⟨.hbm, 49, rfl⟩
abbrev main_call0_c_7 : Ref sig .tc := ⟨.hbm, 50, rfl⟩
abbrev main_call0_v28 : Ref sig .tc := ⟨.hbm, 51, rfl⟩
abbrev main_call0_v29 : Ref sig .tc := ⟨.hbm, 52, rfl⟩
abbrev main_call0_c_8 : Ref sig .tc := ⟨.hbm, 53, rfl⟩
abbrev main_call0_v30 : Ref sig .tc := ⟨.hbm, 54, rfl⟩
abbrev main_call0_v31 : Ref sig .tc := ⟨.hbm, 55, rfl⟩
abbrev main_call0_v32 : Ref sig .tc := ⟨.hbm, 56, rfl⟩
abbrev main_call0_v33 : Ref sig .tc := ⟨.hbm, 57, rfl⟩
abbrev main_call0_v34 : Ref sig .tc := ⟨.hbm, 58, rfl⟩
abbrev main_call0_cst_9 : Ref sig .tc := ⟨.hbm, 59, rfl⟩
abbrev main_call0_v35 : Ref sig .tc := ⟨.hbm, 60, rfl⟩
abbrev main_call0_v36 : Ref sig .tc := ⟨.hbm, 61, rfl⟩
abbrev main_call0_v37 : Ref sig .tc := ⟨.hbm, 62, rfl⟩
abbrev main_call0_v38 : Ref sig .tc := ⟨.hbm, 63, rfl⟩
abbrev main_call0_v39 : Ref sig .tc := ⟨.hbm, 64, rfl⟩
abbrev main_call0_cst_10 : Ref sig .tc := ⟨.hbm, 65, rfl⟩
abbrev main_call0_v40 : Ref sig .tc := ⟨.hbm, 66, rfl⟩
abbrev main_call0_v41 : Ref sig .tc := ⟨.hbm, 67, rfl⟩
abbrev main_call0_v42 : Ref sig .tc := ⟨.hbm, 68, rfl⟩
abbrev main_call0_cst_11 : Ref sig .tc := ⟨.hbm, 69, rfl⟩
abbrev main_call0_v43 : Ref sig .tc := ⟨.hbm, 70, rfl⟩
abbrev main_call0_cst_12 : Ref sig .tc := ⟨.hbm, 71, rfl⟩
abbrev main_call0_v44 : Ref sig .tc := ⟨.hbm, 72, rfl⟩
abbrev main_call0_v45 : Ref sig .tc := ⟨.hbm, 73, rfl⟩
abbrev main_call0_v46 : Ref sig .tc := ⟨.hbm, 74, rfl⟩
abbrev main_call0_cst_13 : Ref sig .tc := ⟨.hbm, 75, rfl⟩
abbrev main_call0_v47 : Ref sig .tc := ⟨.hbm, 76, rfl⟩
abbrev main_call0_v48 : Ref sig .tc := ⟨.hbm, 77, rfl⟩
abbrev main_call0_cst_14 : Ref sig .tc := ⟨.hbm, 78, rfl⟩
abbrev main_call0_v49 : Ref sig .tc := ⟨.hbm, 79, rfl⟩
abbrev main_call0_v50 : Ref sig .tc := ⟨.hbm, 80, rfl⟩
abbrev main_call0_v51 : Ref sig .tc := ⟨.hbm, 81, rfl⟩
abbrev main_call0_v52 : Ref sig .tc := ⟨.hbm, 82, rfl⟩
abbrev main_v0 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem1_0 : DmaSem sig := 23
abbrev cc2_sem2_0 : DmaSem sig := 24
abbrev cc2_sem3_0 : DmaSem sig := 25
abbrev cc2_sem4_0 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  shapeCasts_S100000_S100000x1 : S100000.ShapeCasts S100000x1
  bcast_S_S100000x32 : S_.BroadcastsInDim S100000x32 (![] : Fin 0 → Fin S100000x32.rank)
  shapeCasts_S64_S1x64 : S64.ShapeCasts S1x64
  bcast_S_S100000x64 : S_.BroadcastsInDim S100000x64 (![] : Fin 0 → Fin S100000x64.rank)
  bcast_S_S1024x64 : S_.BroadcastsInDim S1024x64 (![] : Fin 0 → Fin S1024x64.rank)
  bcast_S_S1024 : S_.BroadcastsInDim S1024 (![] : Fin 0 → Fin S1024.rank)
  shapeCasts_S1024_S1024x1 : S1024.ShapeCasts S1024x1
  shapeCasts_S10_S1x10 : S10.ShapeCasts S1x10
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  gather_S10000x32_S100000x1_S100000x32_1_0_n_n_0_1_132_wf : GatherDims.WF S10000x32 S100000x1 S100000x32 [1] [0] [] [0] [] 1 ![1, 32]
  scatter_S100000_S1200000x1_S1200000_n_0_0_1_wf : ScatterDims.WF S100000 S1200000x1 S1200000 [] [0] [0] 1
  gather_S100000x32_S1200000x1_S1200000x32_1_0_n_n_0_1_132_wf : GatherDims.WF S100000x32 S1200000x1 S1200000x32 [1] [0] [] [0] [] 1 ![1, 32]
  scatter_S100000x32_S1200000x1_S1200000x32_1_0_0_1_wf : ScatterDims.WF S100000x32 S1200000x1 S1200000x32 [1] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S5000x32_S32x64_S5000x64_1_0_0_1_n_n_wf : DotDims.WF S5000x32 S32x64 S5000x64 [1] [0] [0] [1] [] []
  dot_S5000x64_S64x64_S5000x64_1_0_0_1_n_n_wf : DotDims.WF S5000x64 S64x64 S5000x64 [1] [0] [0] [1] [] []
  dot_S1024x64_S64x10_S1024x10_1_0_0_1_n_n_wf : DotDims.WF S1024x64 S64x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S1024x64.size a
  hwx2_0 : ∀ i : grid2.Coords, EltTy.bits .f32 = 32 ∨ (Rect.block (s := S1024x64) S1024x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S1024x1.size a
  hwx2_1 : ∀ i : grid2.Coords, EltTy.bits .f32 = 32 ∨ (Rect.block (s := S1024x1) S1024x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x10.size a ≤ S64x10.size a
  hwx2_2 : ∀ i : grid2.Coords, EltTy.bits .f32 = 32 ∨ (Rect.block (s := S64x10) S64x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10.size a ≤ S1x10.size a
  hwx2_3 : ∀ i : grid2.Coords, EltTy.bits .f32 = 32 ∨ (Rect.block (s := S1x10) S1x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x10.size a ≤ S1024x10.size a
  hwx2_4 : ∀ i : grid2.Coords, EltTy.bits .f32 = 32 ∨ (Rect.block (s := S1024x10) S1024x10.size (cc2_transform_4 i) (hinb2_4 i)).WholeWords (EltTy.packing .f32)

variable [Facts₀]

def gather_S10000x32_S100000x1_S100000x32_1_0_n_n_0_1_132 : GatherDims S10000x32 S100000x1 S100000x32 where
  offsetDims := [1]
  collapsedSliceDims := [0]
  operandBatchingDims := []
  startIndicesBatchingDims := []
  startIndexMap := [0]
  indexVectorDim := 1
  sliceSizes := ![1, 32]
  wf := gather_S10000x32_S100000x1_S100000x32_1_0_n_n_0_1_132_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x32_S1200000x1_S1200000x32_1_0_n_n_0_1_132 : GatherDims S100000x32 S1200000x1 S1200000x32 where
  offsetDims := [1]
  collapsedSliceDims := [0]
  operandBatchingDims := []
  startIndicesBatchingDims := []
  startIndexMap := [0]
  indexVectorDim := 1
  sliceSizes := ![1, 32]
  wf := gather_S100000x32_S1200000x1_S1200000x32_1_0_n_n_0_1_132_wf
def scatter_S100000x32_S1200000x1_S1200000x32_1_0_0_1 : ScatterDims S100000x32 S1200000x1 S1200000x32 where
  updateWindowDims := [1]
  insertedWindowDims := [0]
  scatterDimsToOperandDims := [0]
  indexVectorDim := 1
  wf := scatter_S100000x32_S1200000x1_S1200000x32_1_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S1024x64_S64x10_S1024x10_1_0_0_1_n_n : DotDims S1024x64 S64x10 S1024x10 where
  lhsContracting := [1]
  rhsContracting := [0]
  lhsNonContracting := [0]
  rhsNonContracting := [1]
  lhsBatch := []
  rhsBatch := []
  wf := dot_S1024x64_S64x10_S1024x10_1_0_0_1_n_n_wf

abbrev win0_0 : Pipeline.Window sig grid0 :=
  Pipeline.Window.ofSpec (Memref.whole main_call0_v25) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v6) S5000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v26) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v27) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v37) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v27) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v38) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v39) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_call0_v42) S1024x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_call0_v51) S1024x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S64x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v52) S1x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v0) S1024x10.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000 : Shape := ⟨1, ![100000]⟩
abbrev S1200000 : Shape := ⟨1, ![1200000]⟩
abbrev S10000x32 : Shape := ⟨2, ![10000, 32]⟩
abbrev S32x64 : Shape := ⟨2, ![32, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩
abbrev S100000x1 : Shape := ⟨2, ![100000, 1]⟩
abbrev S100000x32 : Shape := ⟨2, ![100000, 32]⟩
abbrev S1200000x1 : Shape := ⟨2, ![1200000, 1]⟩
abbrev S1200000x32 : Shape := ⟨2, ![1200000, 32]⟩
abbrev S100000x64 : Shape := ⟨2, ![100000, 64]⟩
abbrev S1x64 : Shape := ⟨2, ![1, 64]⟩
abbrev S1200000x64 : Shape := ⟨2, ![1200000, 64]⟩
abbrev S1024x64 : Shape := ⟨2, ![1024, 64]⟩
abbrev S1024 : Shape := ⟨1, ![1024]⟩
abbrev S1024x1 : Shape := ⟨2, ![1024, 1]⟩
abbrev S1024x10 : Shape := ⟨2, ![1024, 10]⟩
abbrev S1x10 : Shape := ⟨2, ![1, 10]⟩

abbrev nBuf : Space → Nat
  | .hbm => 110
  | .vmem => 0
  | .smem => 0
  | _ => 0

abbrev bufTy : (tb : Table) → Fin (tcTables nBuf tb) → BufTy
  | .hbm, ⟨0, _⟩ => ⟨S100000, .i32⟩
  | .hbm, ⟨1, _⟩ => ⟨S1200000, .i32⟩
  | .hbm, ⟨2, _⟩ => ⟨S1200000, .i32⟩
  | .hbm, ⟨3, _⟩ => ⟨S100000, .i32⟩
  | .hbm, ⟨4, _⟩ => ⟨S10000x32, .f32⟩
  | .hbm, ⟨5, _⟩ => ⟨S32x64, .f32⟩
  | .hbm, ⟨6, _⟩ => ⟨S64, .f32⟩
  | .hbm, ⟨7, _⟩ => ⟨S32x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x10, .f32⟩
  | .hbm, ⟨12, _⟩ => ⟨S10, .f32⟩
  | .hbm, ⟨13, _⟩ => ⟨S_, .i32⟩
  | .hbm, ⟨14, _⟩ => ⟨S100000, .i32⟩
  | .hbm, ⟨15, _⟩ => ⟨S100000, .i1⟩
  | .hbm, ⟨16, _⟩ => ⟨S_, .i32⟩
  | .hbm, ⟨17, _⟩ => ⟨S100000, .i32⟩
  | .hbm, ⟨18, _⟩ => ⟨S100000, .i32⟩
  | .hbm, ⟨19, _⟩ => ⟨S100000, .i32⟩
  | .hbm, ⟨20, _⟩ => ⟨S100000x1, .i32⟩
  | .hbm, ⟨21, _⟩ => ⟨S100000x32, .f32⟩
  | .hbm, ⟨22, _⟩ => ⟨S_, .i32⟩
  | .hbm, ⟨23, _⟩ => ⟨S1200000, .i32⟩
  | .hbm, ⟨24, _⟩ => ⟨S1200000, .i1⟩
  | .hbm, ⟨25, _⟩ => ⟨S_, .i32⟩
  | .hbm, ⟨26, _⟩ => ⟨S1200000, .i32⟩
  | .hbm, ⟨27, _⟩ => ⟨S1200000, .i32⟩
  | .hbm, ⟨28, _⟩ => ⟨S1200000, .i32⟩
  | .hbm, ⟨29, _⟩ => ⟨S1200000x1, .i32⟩
  | .hbm, ⟨30, _⟩ => ⟨S1200000x32, .f32⟩
  | .hbm, ⟨31, _⟩ => ⟨S_, .f32⟩
  | .hbm, ⟨32, _⟩ => ⟨S100000x32, .f32⟩
  | .hbm, ⟨33, _⟩ => ⟨S1200000x1, .i32⟩
  | .hbm, ⟨34, _⟩ => ⟨S100000x32, .f32⟩
  | .hbm, ⟨35, _⟩ => ⟨S_, .f32⟩
  | .hbm, ⟨36, _⟩ => ⟨S1200000, .f32⟩
  | .hbm, ⟨37, _⟩ => ⟨S_, .f32⟩
  | .hbm, ⟨38, _⟩ => ⟨S100000, .f32⟩
  | .hbm, ⟨39, _⟩ => ⟨S1200000x1, .i32⟩
  | .hbm, ⟨40, _⟩ => ⟨S100000, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S100000x32, .f32⟩
  | .hbm, ⟨46, _⟩ => ⟨S100000x32, .f32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .f32⟩
  | .hbm, ⟨56, _⟩ => ⟨S_, .i32⟩
  | .hbm, ⟨57, _⟩ => ⟨S1200000, .i32⟩
  | .hbm, ⟨58, _⟩ => ⟨S1200000, .i1⟩
  | .hbm, ⟨59, _⟩ => ⟨S_, .i32⟩
  | .hbm, ⟨60, _⟩ => ⟨S1200000, .i32⟩
  | .hbm, ⟨61, _⟩ => ⟨S1200000, .i32⟩
  | .hbm, ⟨62, _⟩ => ⟨S1200000, .i32⟩
  | .hbm, ⟨63, _⟩ => ⟨S1200000x1, .i32⟩
  | .hbm, ⟨64, _⟩ => ⟨S1200000x64, .f32⟩
  | .hbm, ⟨65, _⟩ => ⟨S_, .f32⟩
  | .hbm, ⟨66, _⟩ => ⟨S100000x64, .f32⟩
  | .hbm, ⟨67, _⟩ => ⟨S1200000x1, .i32⟩
  | .hbm, ⟨68, _⟩ => ⟨S100000x64, .f32⟩
  | .hbm, ⟨69, _⟩ => ⟨S_, .f32⟩
  | .hbm, ⟨70, _⟩ => ⟨S1200000, .f32⟩
  | .hbm, ⟨71, _⟩ => ⟨S_, .f32⟩
  | .hbm, ⟨72, _⟩ => ⟨S100000, .f32⟩
  | .hbm, ⟨73, _⟩ => ⟨S1200000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000x1, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S1024x64, .f32⟩
  | .hbm, ⟨92, _⟩ => ⟨S100000x1, .i32⟩
  | .hbm, ⟨93, _⟩ => ⟨S1024x64, .f32⟩
  | .hbm, ⟨94, _⟩ => ⟨S_, .f32⟩
  | .hbm, ⟨95, _⟩ => ⟨S100000, .f32⟩
  | .hbm, ⟨96, _⟩ => ⟨S_, .f32⟩
  | .hbm, ⟨97, _⟩ => ⟨S1024, .f32⟩
  | .hbm, ⟨98, _⟩ => ⟨S100000x1, .i32⟩
  | .hbm, ⟨99, _⟩ => ⟨S1024, .f32⟩
  | .hbm, ⟨100, _⟩ => ⟨S_, .f32⟩
  | .hbm, ⟨101, _⟩ => ⟨S1024, .f32⟩
  | .hbm, ⟨102, _⟩ => ⟨S1024, .f32⟩
  | .hbm, ⟨103, _⟩ => ⟨S1024x1, .f32⟩
  | .hbm, ⟨104, _⟩ => ⟨S1024x64, .f32⟩
  | .hbm, ⟨105, _⟩ => ⟨S1024x64, .f32⟩
  | .hbm, ⟨106, _⟩ => ⟨S1024x10, .f32⟩
  | .hbm, ⟨107, _⟩ => ⟨S1x10, .f32⟩
  | .hbm, ⟨108, _⟩ => ⟨S1024x10, .f32⟩
  | .hbm, ⟨109, _⟩ => ⟨S1024x10, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call0_cst : Ref sig .tc := ⟨.hbm, 53, rfl⟩
abbrev main_call0_v0 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_11 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_call1_cst : Ref sig .tc := ⟨.hbm, 87, rfl⟩
abbrev main_call1_v0 : Ref sig .tc := ⟨.hbm, 88, rfl⟩
abbrev main_v58 : Ref sig .tc := ⟨.hbm, 89, rfl⟩
abbrev main_cst_12 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_13 : Ref sig .tc := ⟨.hbm, 94, rfl⟩
abbrev main_v62 : Ref sig .tc := ⟨.hbm, 95, rfl⟩
abbrev main_cst_14 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_15 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S_S1024x64 : S_.BroadcastsInDim S1024x64 (![] : Fin 0 → Fin S1024x64.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S10_S1x10_1 : S10.BroadcastsInDim S1x10 (![1] : Fin 1 → Fin S1x10.rank)
  bcast_S1x10_S1024x10_0_1 : S1x10.BroadcastsInDim S1024x10 (![0, 1] : Fin 2 → Fin S1024x10.rank)
  gather_S10000x32_S100000x1_S100000x32_1_0_n_n_0_1_132_wf : GatherDims.WF S10000x32 S100000x1 S100000x32 [1] [0] [] [0] [] 1 ![1, 32]
  gather_S100000x32_S1200000x1_S1200000x32_1_0_n_n_0_1_132_wf : GatherDims.WF S100000x32 S1200000x1 S1200000x32 [1] [0] [] [0] [] 1 ![1, 32]
  scatter_S100000x32_S1200000x1_S1200000x32_1_0_0_1_wf : ScatterDims.WF S100000x32 S1200000x1 S1200000x32 [1] [0] [0] 1
  scatter_S100000_S1200000x1_S1200000_n_0_0_1_wf : ScatterDims.WF S100000 S1200000x1 S1200000 [] [0] [0] 1
  dot_S100000x32_S32x64_S100000x64_1_0_0_1_n_n_wf : DotDims.WF S100000x32 S32x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x64_S64x10_S1024x10_1_0_0_1_n_n_wf : DotDims.WF S1024x64 S64x10 S1024x10 [1] [0] [0] [1] [] []

variable [Facts₀]

def gather_S10000x32_S100000x1_S100000x32_1_0_n_n_0_1_132 : GatherDims S10000x32 S100000x1 S100000x32 where
  offsetDims := [1]
  collapsedSliceDims := [0]
  operandBatchingDims := []
  startIndicesBatchingDims := []
  startIndexMap := [0]
  indexVectorDim := 1
  sliceSizes := ![1, 32]
  wf := gather_S10000x32_S100000x1_S100000x32_1_0_n_n_0_1_132_wf
def gather_S100000x32_S1200000x1_S1200000x32_1_0_n_n_0_1_132 : GatherDims S100000x32 S1200000x1 S1200000x32 where
  offsetDims := [1]
  collapsedSliceDims := [0]
  operandBatchingDims := []
  startIndicesBatchingDims := []
  startIndexMap := [0]
  indexVectorDim := 1
  sliceSizes := ![1, 32]
  wf := gather_S100000x32_S1200000x1_S1200000x32_1_0_n_n_0_1_132_wf
def scatter_S100000x32_S1200000x1_S1200000x32_1_0_0_1 : ScatterDims S100000x32 S1200000x1 S1200000x32 where
  updateWindowDims := [1]
  insertedWindowDims := [0]
  scatterDimsToOperandDims := [0]
  indexVectorDim := 1
  wf := scatter_S100000x32_S1200000x1_S1200000x32_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x64_S64x10_S1024x10_1_0_0_1_n_n : DotDims S1024x64 S64x10 S1024x10 where
  lhsContracting := [1]
  rhsContracting := [0]
  lhsNonContracting := [0]
  rhsNonContracting := [1]
  lhsBatch := []
  rhsBatch := []
  wf := dot_S1024x64_S64x10_S1024x10_1_0_0_1_n_n_wf

class Facts : Prop extends Facts₀ where

variable [Facts]
-- ==== Proof.ValueRun.lean ====
/-
  The idealized kernel's run with its result NAMED. @main is three launches among stretches of host operations; the
  buffer contents at each boundary are a fold from the launch memory (the generated `W0 … W6`), and every weakly fair
  execution ends with every unscoped buffer at the last boundary's contents. So the result buffer ends at
  `W6 m ρ c main_v0` — what the third launch's write-back leaves — and each argument at its launch contents.
-/
import proofs.«113252_j88648124990386_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_last : θ_run defs (onTc (τ := τ) (main (F := F))) ⟨m, fun _ => 0, ρ⟩ (fun r => ∀ c : Dev nD,
      r.2.mem ((c.tc : Thread nD τ).loc main_v0) = W6 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.Hand

end
-- ==== Proof.LibPlainDot.lean ====
/-
  A plain matrix product read at an index, over the extended reals, for ANY extents.

  `DotDims.plain M K N` is the dimension record of `[M, K] × [K, N] → [M, N]`: the left operand's axis 1 contracted
  with the right operand's axis 0, no batch axis. At the ideal values both a `tpu.matmul` into a zero accumulator and
  the host's `dot_general` over that record are, at the output index `(p, q)`, the one sum
  `∑ k : Fin K, l (p, k) · r (k, q)` — no rounding, no accumulation order and no tiling is left in either.
  A printed record with the same six axis lists IS `DotDims.plain` at its extents (by `rfl`: the lists are literal and
  the well-formedness field is a proof), so these lemmas read every such product, whatever the extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- The left operand's index at output `j` and contraction index `k` has `j`'s row … -/
theorem lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- … and the contracted coordinate as its column. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right operand's index has the contracted coordinate as its row … -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- … and `j`'s column. -/
theorem rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's contraction index, re-indexed by the one contracted coordinate. -/
theorem sum_contr (l : (⟨2, ![M, K]⟩ : Shape).Idx → EReal) (r : (⟨2, ![K, N]⟩ : Shape).Idx → EReal) (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

/-- A `tpu.matmul` into the zero accumulator, at `(p, q)`: the sum over `k` of `l (p, k) · r (k, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant (F := Ideal) ⟨2, ![M, N]⟩ .f32 0x00000000#32) (ix2 p q)
      = ∑ k : Fin K, l (ix2 p k) * r (ix2 k q) :=
  (Ideal.matmul_constant_zero_apply (DotDims.plain M K N) prec l r (ix2 p q)).trans (sum_contr M K N l r p q)

/-- The host's `dot_general`, at `(p, q)`: the same sum. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (sum_contr M K N l r p q)

end Cert.Lib.PlainDot

end
-- ==== Proof.LibColumn.lean ====
/-
  A column kept as an axis of extent one, read at an index — the two layout steps of a per-row scalar
  (`inv.reshape(n, 1)`, then the product with an `[n, d]` array):

  * an `[a]` array cast to `[a, 1]` holds at `(i, 0)` what the array held at `i`: both positions are the `i`-th in
    row-major order;
  * an `[a, 1]` array broadcast to `[a, b]` holds at `(p, c)` its row `p`'s one entry, whatever the column `c`.
-/
import Idealize.ShloMosaic.Lib.Pipeline.Value
import Idealize.ShloMosaic.Lib.ValueIdx

noncomputable section

namespace Cert.Lib.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column

end
-- ==== Proof.Sage.lean ====
/-
  The mathematics of a mean-aggregating graph layer, entry by entry, over the extended reals.

  A node's new feature `q` is
      max ( ( ∑ₖ (msg k / c) · wl k  +  b )  +  ∑ₖ x k · wr k ,  0 ),
  where `msg` is the sum of the neighbours' features, `c` the neighbour count clamped below at one, `x` the node's own
  feature row, `wl`, `wr` the `q`-th columns of the two weight matrices and `b` the bias. A fused implementation
  multiplies by the reciprocal `1 / c` instead of dividing, and adds the bias last:
      max ( ( ∑ₖ (msg k · (1 / c)) · wl k  +  ∑ₖ x k · wr k )  +  b ,  0 ).
  The two agree at every extended real: `c = max c₀ 1 ≥ 1` is never zero, so `u / c` is `u · c⁻¹` and `1 / c` is `c⁻¹`
  (at `c = +∞` both sides are `u · 0`), and moving the bias past the second sum is commutativity and associativity of
  `+`, which hold at the infinities too. No distributive law is used, so nothing needs to be finite.
  The pooled projection at the end, `∑ₖ (g k / c) · w k + b` against `∑ₖ (g k · (1 / c)) · w k + b`, is the same law.
-/
import Idealize.ShloMosaic.PureOps.Ideal
import Idealize.ShloMosaic.Lib.ValueIdx

noncomputable section

namespace Cert.Sage

open Idealize.ShloMosaic Idealize.ShloMosaic.ValueIdx

/-- The word `0x3F800000` is the number one. -/
theorem one_word : Ideal.ofBits .f32 0x3F800000#32 = 1 := by
  simp [Ideal.ofBits, Ideal.ieee, -EReal.coe_mul]; norm_num

/-- The word `0x00000000` is zero. -/
theorem zero_word : Ideal.ofBits .f32 0x00000000#32 = 0 := by
  simp [Ideal.ofBits, Ideal.ieee]

/-- A count clamped below at one is not zero. -/
theorem clamped_ne_zero (c : EReal) : max c 1 ≠ 0 :=
  ne_of_gt (lt_of_lt_of_le (by exact_mod_cast (zero_lt_one : (0 : ℝ) < 1)) (le_max_right c 1))

/-- Dividing by a clamped count is multiplying by its reciprocal, at every extended real. -/
theorem div_clamped (u c : EReal) : Ideal.div u (max c 1) = u * Ideal.div 1 (max c 1) := by
  unfold Ideal.div
  rw [if_neg (clamped_ne_zero c), if_neg (clamped_ne_zero c), one_mul]

/-- One entry of a layer, in the reference's arrangement. -/
def entry {K : Nat} (msg x wl wr : Fin K → EReal) (c b : EReal) : EReal :=
  max (((∑ k : Fin K, Ideal.div (msg k) c * wl k) + b) + ∑ k : Fin K, x k * wr k) 0

/-- The fused arrangement — reciprocal multiplied in, bias added last — is the same entry. -/
theorem entry_fused {K : Nat} (msg x wl wr : Fin K → EReal) (c₀ b : EReal) :
    max (((∑ k : Fin K, (msg k * Ideal.div 1 (max c₀ 1)) * wl k) + ∑ k : Fin K, x k * wr k) + b) 0
      = entry msg x wl wr (max c₀ 1) b := by
  unfold entry
  have e : ∀ k, Ideal.div (msg k) (max c₀ 1) * wl k = (msg k * Ideal.div 1 (max c₀ 1)) * wl k :=
    fun k => by rw [div_clamped]
  simp only [e]
  rw [add_right_comm]

/-- One entry of the pooled projection, in the reference's arrangement. -/
def headEntry {K : Nat} (g w : Fin K → EReal) (c b : EReal) : EReal :=
  (∑ k : Fin K, Ideal.div (g k) c * w k) + b

/-- With the reciprocal multiplied in it is the same entry. -/
theorem headEntry_fused {K : Nat} (g w : Fin K → EReal) (c₀ b : EReal) :
    (∑ k : Fin K, (g k * Ideal.div 1 (max c₀ 1)) * w k) + b = headEntry g w (max c₀ 1) b := by
  unfold headEntry
  have e : ∀ k, Ideal.div (g k) (max c₀ 1) * w k = (g k * Ideal.div 1 (max c₀ 1)) * w k :=
    fun k => by rw [div_clamped]
  simp only [e]

/-- A layer as an array: node `r`, output feature `q`. -/
def layer (Nn K H : Nat) (msg : (⟨2, ![Nn, K]⟩ : Shape).Idx → EReal) (cnt : (⟨1, ![Nn]⟩ : Shape).Idx → EReal)
    (x : (⟨2, ![Nn, K]⟩ : Shape).Idx → EReal) (wl : (⟨2, ![K, H]⟩ : Shape).Idx → EReal)
    (b : (⟨1, ![H]⟩ : Shape).Idx → EReal) (wr : (⟨2, ![K, H]⟩ : Shape).Idx → EReal) :
    (⟨2, ![Nn, H]⟩ : Shape).Idx → EReal :=
  fun i => entry (fun k => msg (ix2 (⟨(i 0).val, (i 0).isLt⟩ : Fin Nn) k)) (fun k => x (ix2 (⟨(i 0).val, (i 0).isLt⟩ : Fin Nn) k))
    (fun k => wl (ix2 k (⟨(i 1).val, (i 1).isLt⟩ : Fin H))) (fun k => wr (ix2 k (⟨(i 1).val, (i 1).isLt⟩ : Fin H)))
    (max (cnt (ix1 (⟨(i 0).val, (i 0).isLt⟩ : Fin Nn))) 1) (b (ix1 (⟨(i 1).val, (i 1).isLt⟩ : Fin H)))

theorem layer_apply (Nn K H : Nat) (msg cnt x wl b wr) (r : Fin Nn) (q : Fin H) :
    layer Nn K H msg cnt x wl b wr (ix2 r q)
      = entry (fun k => msg (ix2 r k)) (fun k => x (ix2 r k)) (fun k => wl (ix2 k q)) (fun k => wr (ix2 k q))
          (max (cnt (ix1 r)) 1) (b (ix1 q)) := rfl

/-- The pooled projection as an array: graph `g`, class `q`. -/
def head (G K C : Nat) (gsum : (⟨2, ![G, K]⟩ : Shape).Idx → EReal) (gcnt : (⟨1, ![G]⟩ : Shape).Idx → EReal)
    (w : (⟨2, ![K, C]⟩ : Shape).Idx → EReal) (b : (⟨1, ![C]⟩ : Shape).Idx → EReal) :
    (⟨2, ![G, C]⟩ : Shape).Idx → EReal :=
  fun i => headEntry (fun k => gsum (ix2 (⟨(i 0).val, (i 0).isLt⟩ : Fin G) k)) (fun k => w (ix2 k (⟨(i 1).val, (i 1).isLt⟩ : Fin C)))
    (max (gcnt (ix1 (⟨(i 0).val, (i 0).isLt⟩ : Fin G))) 1) (b (ix1 (⟨(i 1).val, (i 1).isLt⟩ : Fin C)))

theorem head_apply (G K C : Nat) (gsum gcnt w b) (g : Fin G) (q : Fin C) :
    head G K C gsum gcnt w b (ix2 g q)
      = headEntry (fun k => gsum (ix2 g k)) (fun k => w (ix2 k q)) (max (gcnt (ix1 g)) 1) (b (ix1 q)) := rfl

end Cert.Sage

end
-- ==== Proof.Region0.lean ====
/-
  The first layer's launch, as one function of the arrays it finds. The launch walks twenty blocks of 5000 nodes;
  at block `t` it stages rows `5000·t … 5000·t + 4999` of the summed neighbour features, of the reciprocal counts and of
  the nodes' own features, the two weight matrices and the bias row whole, runs the body and writes the 5000 × 64 result
  back to the same rows of the output. So row `r` of the output is written once, by block `r / 5000`, and holds the body's
  entry at row `r % 5000` of that block's inputs — which are rows `r` of the arrays. Read through the body's arithmetic
  (the payload lemma below) and the law that joins the fused arrangement to the reference's (`Sage.entry_fused`), the output
  array is `Sage.layer` of the arrays as the launch finds them, provided the reciprocal-count column holds
  `1 / max (cnt r) 1` and the bias row holds the bias.
-/
import proofs.«113252_j88648124990386_2_alg».proof.Proof.Gen.KernelIdeal.Frame
import proofs.«113252_j88648124990386_2_alg».proof.Proof.LibPlainDot
import proofs.«113252_j88648124990386_2_alg».proof.Proof.LibColumn
import proofs.«113252_j88648124990386_2_alg».proof.Proof.Sage
import Idealize.ShloMosaic.Lib.ValueLayout
import Idealize.ShloMosaic.Lib.Pipeline.Value

set_option maxRecDepth 16384

noncomputable section

namespace Cert.KernelIdeal.Hand.R0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at entry `(p, q)`: the two products as sums over the 32 input features, the reciprocal
    count of row `p` multiplied into the first, the bias of column `q` added last, clamped at zero. -/
theorem pay_apply (x0 : Vec Ideal S5000x32 .f32) (x1 : Vec Ideal S5000x1 .f32) (x2 : Vec Ideal S5000x32 .f32)
    (x3 x5 : Vec Ideal S32x64 .f32) (x4 : Vec Ideal S1x64 .f32) (p : Fin 5000) (q : Fin 64) :
    k0_pay1 x0 x1 x2 x3 x5 x4 (ix2 p q)
      = max (((∑ k : Fin 32, (x0 (ix2 p k) * x1 (ix2 p (0 : Fin 1))) * x3 (ix2 k q))
              + ∑ k : Fin 32, x2 (ix2 p k) * x5 (ix2 k q)) + x4 (ix2 (0 : Fin 1) q)) 0 := by
  unfold k0_pay1
  rw [shapeCast_self, shapeCast_self, shapeCast_self, shapeCast_self]
  simp only [maximumf_apply, addf_apply]
  refine congrArg₂ max (congrArg₂ (· + ·) (congrArg₂ (· + ·) ?_ ?_) ?_) ?_
  · refine (Cert.Lib.PlainDot.matmul_zero_apply 5000 32 64 none _ _ p q).trans (Finset.sum_congr rfl fun k _ => ?_)
    show (x0 (ix2 p k) * broadcastTo S5000x32 x1 broadcasts_S5000x1_S5000x32 (ix2 p k)) * x3 (ix2 k q) = _
    rw [Cert.Lib.Column.broadcastTo_a1_ab_apply]
  · exact Cert.Lib.PlainDot.matmul_zero_apply 5000 32 64 none _ _ p q
  · exact broadcastTo_1b_ab_apply x4 _ p q
  · exact Ideal.ofBits_zero_f32

/-- The printed index maps over the grid: the three row-blocked inputs and the output sit at block `(t, 0)`, the two
    weight matrices and the bias row at block `(0, 0)`. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each staged block is rows of its array -/

theorem blk_msg (c : Dev nD) (t : Fin cfg0.N) (p : Fin 5000) (k : Fin 32) (hr : 5000 * t.val + p.val < 100000) :
    (iblk0 V c 0 t : Vec Ideal S5000x32 .f32) (ix2 p k)
      = (V c main_call0_v25 : S100000x32.Idx → EReal) (ix2 (⟨5000 * t.val + p.val, hr⟩ : Fin 100000) k) := by
  obtain ⟨e0, e1, -⟩ := idx t
  show (V c main_call0_v25 : S100000x32.Idx → EReal) (((cfg0.win 0).blk t).view.emb (ix2 p k)) = _
  refine congrArg (V c main_call0_v25 : S100000x32.Idx → EReal) (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 32 + 1 * k.val = k.val; rw [e1]; omega

theorem blk_inv (c : Dev nD) (t : Fin cfg0.N) (p : Fin 5000) (hr : 5000 * t.val + p.val < 100000) :
    (iblk0 V c 1 t : Vec Ideal S5000x1 .f32) (ix2 p (0 : Fin 1))
      = (V c main_call0_v15 : S100000x1.Idx → EReal) (ix2 (⟨5000 * t.val + p.val, hr⟩ : Fin 100000) (0 : Fin 1)) := by
  obtain ⟨-, -, e0, e1, -⟩ := idx t
  show (V c main_call0_v15 : S100000x1.Idx → EReal) (((cfg0.win 1).blk t).view.emb (ix2 p (0 : Fin 1))) = _
  refine congrArg (V c main_call0_v15 : S100000x1.Idx → EReal) (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 1 + 1 * (0 : Fin 1).val = (0 : Fin 1).val; rw [e1]; rfl

theorem blk_x (c : Dev nD) (t : Fin cfg0.N) (p : Fin 5000) (k : Fin 32) (hr : 5000 * t.val + p.val < 100000) :
    (iblk0 V c 2 t : Vec Ideal S5000x32 .f32) (ix2 p k)
      = (V c main_call0_v6 : S100000x32.Idx → EReal) (ix2 (⟨5000 * t.val + p.val, hr⟩ : Fin 100000) k) := by
  obtain ⟨-, -, -, -, e0, e1, -⟩ := idx t
  show (V c main_call0_v6 : S100000x32.Idx → EReal) (((cfg0.win 2).blk t).view.emb (ix2 p k)) = _
  refine congrArg (V c main_call0_v6 : S100000x32.Idx → EReal) (funext fun a => Fin.ext ?_)
  match a with
  | ⟨0, _⟩ => show win0_2.index t (0 : Fin 2) * 5000 + 1 * p.val = 5000 * t.val + p.val; rw [e0]; omega
  | ⟨1, _⟩ => show win0_2.index t (1 : Fin 2) * 32 + 1 * k.val = k.val; rw [e1]; omega

theorem blk_wl (c : Dev nD) (t : Fin cfg0.N) (k : Fin 32) (q : Fin 64) :
    (iblk0 V c 3 t : Vec Ideal S32x64 .f32) (ix2 k q) = (V c main_arg5 : S32x64.Idx → EReal) (ix2 k q) := by
  obtain ⟨-, -, -, -, -, -, e0, e1, -⟩ := idx t
  show (V c main_arg5 : S32x64.Idx → EReal) (((cfg0.win 3).blk t).view.emb (ix2 k q)) = _
  refine congrArg (V c main_arg5 : S32x64.Idx → EReal) (funext fun a => Fin.ext ?_)
  match a with
  | ⟨0, _⟩ => show win0_3.index t (0 : Fin 2) * 32 + 1 * k.val = k.val; rw [e0]; omega
  | ⟨1, _⟩ => show win0_3.index t (1 : Fin 2) * 64 + 1 * q.val = q.val; rw [e1]; omega

theorem blk_b (c : Dev nD) (t : Fin cfg0.N) (q : Fin 64) :
    (iblk0 V c 4 t : Vec Ideal S1x64 .f32) (ix2 (0 : Fin 1) q) = (V c main_call0_v26 : S1x64.Idx → EReal) (ix2 (0 : Fin 1) q) := by
  obtain ⟨-, -, -, -, -, -, -, -, e0, e1, -⟩ := idx t
  show (V c main_call0_v26 : S1x64.Idx → EReal) (((cfg0.win 4).blk t).view.emb (ix2 (0 : Fin 1) q)) = _
  refine congrArg (V c main_call0_v26 : S1x64.Idx → EReal) (funext fun a => Fin.ext ?_)
  match a with
  | ⟨0, _⟩ => show win0_4.index t (0 : Fin 2) * 1 + 1 * (0 : Fin 1).val = (0 : Fin 1).val; rw [e0]; rfl
  | ⟨1, _⟩ => show win0_4.index t (1 : Fin 2) * 64 + 1 * q.val = q.val; rw [e1]; omega

theorem blk_wr (c : Dev nD) (t : Fin cfg0.N) (k : Fin 32) (q : Fin 64) :
    (iblk0 V c 5 t : Vec Ideal S32x64 .f32) (ix2 k q) = (V c main_arg7 : S32x64.Idx → EReal) (ix2 k q) := by
  obtain ⟨-, -, -, -, -, -, -, -, -, -, e0, e1, -⟩ := idx t
  show (V c main_arg7 : S32x64.Idx → EReal) (((cfg0.win 5).blk t).view.emb (ix2 k q)) = _
  refine congrArg (V c main_arg7 : S32x64.Idx → EReal) (funext fun a => Fin.ext ?_)
  match a with
  | ⟨0, _⟩ => show win0_5.index t (0 : Fin 2) * 32 + 1 * k.val = k.val; rw [e0]; omega
  | ⟨1, _⟩ => show win0_5.index t (1 : Fin 2) * 64 + 1 * q.val = q.val; rw [e1]; omega

/-! ## What each block writes back, the cover, the array -/

/-- An index of the output is in block `t` iff its row is among the block's 5000 and its column among the 64. -/
theorem mem_blk (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_call0_v27).slice (win0_6.rect t)).set ↔ _
  rw [View.set_slice_whole, Rect.mem_set_unit]
  exact Iff.rfl

/-- Every output index lies in the block of its row's quotient by 5000. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  have ht : t.val = (i 0).val / 5000 := rfl
  obtain ⟨-, -, -, -, -, -, -, -, -, -, -, -, e0, e1⟩ := idx t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; rw [e0, ht]; omega
  | ⟨1, _⟩ => show win0_6.index t (1 : Fin 2) * 64 ≤ (i 1).val ∧ (i 1).val < win0_6.index t (1 : Fin 2) * 64 + 64; rw [e1]; omega

variable (cnt : (⟨1, ![100000]⟩ : Shape).Idx → EReal) (bias : (⟨1, ![64]⟩ : Shape).Idx → EReal)

/-- The layer of the arrays as the launch finds them. -/
abbrev spec (c : Dev nD) : S100000x64.Idx → EReal :=
  Cert.Sage.layer 100000 32 64 (V c main_call0_v25 : S100000x32.Idx → EReal) cnt (V c main_call0_v6 : S100000x32.Idx → EReal)
    (V c main_arg5 : S32x64.Idx → EReal) bias (V c main_arg7 : S32x64.Idx → EReal)

/-- WHAT BLOCK `t` WRITES BACK is block `t` of the layer of the arrays. -/
theorem flushed_eq (c : Dev nD)
    (hinv : ∀ r : Fin 100000, (V c main_call0_v15 : S100000x1.Idx → EReal) (ix2 r (0 : Fin 1)) = Ideal.div 1 (max (cnt (ix1 r)) 1))
    (hb : ∀ q : Fin 64, (V c main_call0_v26 : S1x64.Idx → EReal) (ix2 (0 : Fin 1) q) = bias (ix1 q))
    (t : Fin cfg0.N) :
    (dat0 V c).flushed 6 t = ((cfg0.win 6).blk t).view.read (Elt Ideal) (spec V cnt bias c) := by
  show (cfg0.win 6).cut (grid0.coords t) ((dat0 V c).after 6 t) = _
  rw [after0_6]
  unfold out0_6
  rw [View.canon_unit_zero zero_offsets]
  simp only [View.ld_unit_zero (S := S5000x32) zero_offsets, View.ld_unit_zero (S := S5000x1) zero_offsets,
    View.ld_unit_zero (S := S32x64) zero_offsets, View.ld_unit_zero (S := S1x64) zero_offsets]
  funext y
  obtain ⟨p, q, rfl⟩ : ∃ (p : Fin 5000) (q : Fin 64), y = ix2 p q := ⟨y 0, y 1, eq_ix2 y⟩
  have hN : cfg0.N = 20 := N_0
  have hr : 5000 * t.val + p.val < 100000 := by have := t.isLt; have := p.isLt; omega
  obtain ⟨-, -, -, -, -, -, -, -, -, -, -, -, e0, e1⟩ := idx t
  have hemb : ((cfg0.win 6).blk t).view.emb (ix2 p q) = (ix2 (⟨5000 * t.val + p.val, hr⟩ : Fin 100000) q : S100000x64.Idx) :=
    funext fun a => Fin.ext (by
      match a with
      | ⟨0, _⟩ => show win0_6.index t (0 : Fin 2) * 5000 + 1 * p.val = 5000 * t.val + p.val; rw [e0]; omega
      | ⟨1, _⟩ => show win0_6.index t (1 : Fin 2) * 64 + 1 * q.val = q.val; rw [e1]; omega)
  show k0_pay1 (iblk0 V c 0 t) (iblk0 V c 1 t) (iblk0 V c 2 t) (iblk0 V c 3 t) (iblk0 V c 5 t) (iblk0 V c 4 t) (ix2 p q)
      = spec V cnt bias c (((cfg0.win 6).blk t).view.emb (ix2 p q))
  rw [hemb]
  refine (pay_apply (iblk0 V c 0 t) (iblk0 V c 1 t) (iblk0 V c 2 t) (iblk0 V c 3 t) (iblk0 V c 5 t) (iblk0 V c 4 t) p q).trans ?_
  refine Eq.trans ?_ (Cert.Sage.entry_fused _ _ _ _ _ _)
  refine congrArg₂ max (congrArg₂ (· + ·) (congrArg₂ (· + ·) (Finset.sum_congr rfl fun k _ => ?_) (Finset.sum_congr rfl fun k _ => ?_)) ?_) rfl
  · rw [blk_msg V c t p k hr, blk_inv V c t p hr, blk_wl V c t k q, hinv]
  · rw [blk_x V c t p k hr, blk_wr V c t k q]
  · rw [blk_b V c t q, hb]

/-- THE OUTPUT ARRAY after the launch is the layer of the arrays as the launch finds them. -/
theorem final (c : Dev nD)
    (hinv : ∀ r : Fin 100000, (V c main_call0_v15 : S100000x1.Idx → EReal) (ix2 r (0 : Fin 1)) = Ideal.div 1 (max (cnt (ix1 r)) 1))
    (hb : ∀ q : Fin 64, (V c main_call0_v26 : S1x64.Idx → EReal) (ix2 (0 : Fin 1) q) = bias (ix1 q)) :
    (dat0 V c).arrAt 6 cfg0.N = spec V cnt bias c :=
  (dat0 V c).arrAt_eq_of_cover 6 (spec V cnt bias c) (fun t _ => flushed_eq V cnt bias c hinv hb t) cover

end Cert.KernelIdeal.Hand.R0

end
-- ==== Proof.Region1.lean ====
/-
  The second layer's launch, as one function of the arrays it finds. The launch walks twenty blocks of 5000 nodes;
  at block `t` it stages rows `5000·t … 5000·t + 4999` of the summed neighbour features, of the reciprocal counts and of
  the nodes' own features, the two weight matrices and the bias row whole, runs the body and writes the 5000 × 64 result
  back to the same rows of the output. So row `r` of the output is written once, by block `r / 5000`, and holds the body's
  entry at row `r % 5000` of that block's inputs — which are rows `r` of the arrays. Read through the body's arithmetic
  (the payload lemma below) and the law that joins the fused arrangement to the reference's (`Sage.entry_fused`), the output
  array is `Sage.layer` of the arrays as the launch finds them, provided the reciprocal-count column holds
  `1 / max (cnt r) 1` and the bias row holds the bias.
-/
import proofs.«113252_j88648124990386_2_alg».proof.Proof.Gen.KernelIdeal.Frame
import proofs.«113252_j88648124990386_2_alg».proof.Proof.LibPlainDot
import proofs.«113252_j88648124990386_2_alg».proof.Proof.LibColumn
import proofs.«113252_j88648124990386_2_alg».proof.Proof.Sage
import Idealize.ShloMosaic.Lib.ValueLayout
import Idealize.ShloMosaic.Lib.Pipeline.Value

set_option maxRecDepth 16384

noncomputable section

namespace Cert.KernelIdeal.Hand.R1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at entry `(p, q)`: the two products as sums over the 64 input features, the reciprocal
    count of row `p` multiplied into the first, the bias of column `q` added last, clamped at zero. -/
theorem pay_apply (x0 : Vec Ideal S5000x64 .f32) (x1 : Vec Ideal S5000x1 .f32) (x2 : Vec Ideal S5000x64 .f32)
    (x3 x5 : Vec Ideal S64x64 .f32) (x4 : Vec Ideal S1x64 .f32) (p : Fin 5000) (q : Fin 64) :
    k1_pay1 x0 x1 x2 x3 x5 x4 (ix2 p q)
      = max (((∑ k : Fin 64, (x0 (ix2 p k) * x1 (ix2 p (0 : Fin 1))) * x3 (ix2 k q))
              + ∑ k : Fin 64, x2 (ix2 p k) * x5 (ix2 k q)) + x4 (ix2 (0 : Fin 1) q)) 0 := by
  unfold k1_pay1
  rw [shapeCast_self, shapeCast_self, shapeCast_self, shapeCast_self]
  simp only [maximumf_apply, addf_apply]
  refine congrArg₂ max (congrArg₂ (· + ·) (congrArg₂ (· + ·) ?_ ?_) ?_) ?_
  · refine (Cert.Lib.PlainDot.matmul_zero_apply 5000 64 64 none _ _ p q).trans (Finset.sum_congr rfl fun k _ => ?_)
    show (x0 (ix2 p k) * broadcastTo S5000x64 x1 broadcasts_S5000x1_S5000x64 (ix2 p k)) * x3 (ix2 k q) = _
    rw [Cert.Lib.Column.broadcastTo_a1_ab_apply]
  · exact Cert.Lib.PlainDot.matmul_zero_apply 5000 64 64 none _ _ p q
  · exact broadcastTo_1b_ab_apply x4 _ p q
  · exact Ideal.ofBits_zero_f32

/-- The printed index maps over the grid: the three row-blocked inputs and the output sit at block `(t, 0)`, the two
    weight matrices and the bias row at block `(0, 0)`. -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## Each staged block is rows of its array -/

theorem blk_msg (c : Dev nD) (t : Fin cfg1.N) (p : Fin 5000) (k : Fin 64) (hr : 5000 * t.val + p.val < 100000) :
    (iblk1 V c 0 t : Vec Ideal S5000x64 .f32) (ix2 p k)
      = (V c main_call0_v37 : S100000x64.Idx → EReal) (ix2 (⟨5000 * t.val + p.val, hr⟩ : Fin 100000) k) := by
  obtain ⟨e0, e1, -⟩ := idx t
  show (V c main_call0_v37 : S100000x64.Idx → EReal) (((cfg1.win 0).blk t).view.emb (ix2 p k)) = _
  refine congrArg (V c main_call0_v37 : S100000x64.Idx → EReal) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 64 + 1 * k.val = k.val; rw [e1]; omega

theorem blk_inv (c : Dev nD) (t : Fin cfg1.N) (p : Fin 5000) (hr : 5000 * t.val + p.val < 100000) :
    (iblk1 V c 1 t : Vec Ideal S5000x1 .f32) (ix2 p (0 : Fin 1))
      = (V c main_call0_v15 : S100000x1.Idx → EReal) (ix2 (⟨5000 * t.val + p.val, hr⟩ : Fin 100000) (0 : Fin 1)) := by
  obtain ⟨-, -, e0, e1, -⟩ := idx t
  show (V c main_call0_v15 : S100000x1.Idx → EReal) (((cfg1.win 1).blk t).view.emb (ix2 p (0 : Fin 1))) = _
  refine congrArg (V c main_call0_v15 : S100000x1.Idx → EReal) (funext fun a => Fin.ext ?_)
  match a with
  | ⟨0, _⟩ => show win1_1.index t (0 : Fin 2) * 5000 + 1 * p.val = 5000 * t.val + p.val; rw [e0]; omega
  | ⟨1, _⟩ => show win1_1.index t (1 : Fin 2) * 1 + 1 * (0 : Fin 1).val = (0 : Fin 1).val; rw [e1]; rfl

theorem blk_x (c : Dev nD) (t : Fin cfg1.N) (p : Fin 5000) (k : Fin 64) (hr : 5000 * t.val + p.val < 100000) :
    (iblk1 V c 2 t : Vec Ideal S5000x64 .f32) (ix2 p k)
      = (V c main_call0_v27 : S100000x64.Idx → EReal) (ix2 (⟨5000 * t.val + p.val, hr⟩ : Fin 100000) k) := by
  obtain ⟨-, -, -, -, e0, e1, -⟩ := idx t
  show (V c main_call0_v27 : S100000x64.Idx → EReal) (((cfg1.win 2).blk t).view.emb (ix2 p k)) = _
  refine congrArg (V c main_call0_v27 : S100000x64.Idx → EReal) (funext fun a => Fin.ext ?_)
  match a with
  | ⟨0, _⟩ => show win1_2.index t (0 : Fin 2) * 5000 + 1 * p.val = 5000 * t.val + p.val; rw [e0]; omega
  | ⟨1, _⟩ => show win1_2.index t (1 : Fin 2) * 64 + 1 * k.val = k.val; rw [e1]; omega

theorem blk_wl (c : Dev nD) (t : Fin cfg1.N) (k : Fin 64) (q : Fin 64) :
    (iblk1 V c 3 t : Vec Ideal S64x64 .f32) (ix2 k q) = (V c main_arg8 : S64x64.Idx → EReal) (ix2 k q) := by
  obtain ⟨-, -, -, -, -, -, e0, e1, -⟩ := idx t
  show (V c main_arg8 : S64x64.Idx → EReal) (((cfg1.win 3).blk t).view.emb (ix2 k q)) = _
  refine congrArg (V c main_arg8 : S64x64.Idx → EReal) (funext fun a => Fin.ext ?_)
  match a with
  | ⟨0, _⟩ => show win1_3.index t (0 : Fin 2) * 64 + 1 * k.val = k.val; rw [e0]; omega
  | ⟨1, _⟩ => show win1_3.index t (1 : Fin 2) * 64 + 1 * q.val = q.val; rw [e1]; omega

theorem blk_b (c : Dev nD) (t : Fin cfg1.N) (q : Fin 64) :
    (iblk1 V c 4 t : Vec Ideal S1x64 .f32) (ix2 (0 : Fin 1) q) = (V c main_call0_v38 : S1x64.Idx → EReal) (ix2 (0 : Fin 1) q) := by
  obtain ⟨-, -, -, -, -, -, -, -, e0, e1, -⟩ := idx t
  show (V c main_call0_v38 : S1x64.Idx → EReal) (((cfg1.win 4).blk t).view.emb (ix2 (0 : Fin 1) q)) = _
  refine congrArg (V c main_call0_v38 : S1x64.Idx → EReal) (funext fun a => Fin.ext ?_)
  match a with
  | ⟨0, _⟩ => show win1_4.index t (0 : Fin 2) * 1 + 1 * (0 : Fin 1).val = (0 : Fin 1).val; rw [e0]; rfl
  | ⟨1, _⟩ => show win1_4.index t (1 : Fin 2) * 64 + 1 * q.val = q.val; rw [e1]; omega

theorem blk_wr (c : Dev nD) (t : Fin cfg1.N) (k : Fin 64) (q : Fin 64) :
    (iblk1 V c 5 t : Vec Ideal S64x64 .f32) (ix2 k q) = (V c main_arg10 : S64x64.Idx → EReal) (ix2 k q) := by
  obtain ⟨-, -, -, -, -, -, -, -, -, -, e0, e1, -⟩ := idx t
  show (V c main_arg10 : S64x64.Idx → EReal) (((cfg1.win 5).blk t).view.emb (ix2 k q)) = _
  refine congrArg (V c main_arg10 : S64x64.Idx → EReal) (funext fun a => Fin.ext ?_)
  match a with
  | ⟨0, _⟩ => show win1_5.index t (0 : Fin 2) * 64 + 1 * k.val = k.val; rw [e0]; omega
  | ⟨1, _⟩ => show win1_5.index t (1 : Fin 2) * 64 + 1 * q.val = q.val; rw [e1]; omega

/-! ## What each block writes back, the cover, the array -/

/-- An index of the output is in block `t` iff its row is among the block's 5000 and its column among the 64. -/
theorem mem_blk (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_call0_v39).slice (win1_6.rect t)).set ↔ _
  rw [View.set_slice_whole, Rect.mem_set_unit]
  exact Iff.rfl

/-- Every output index lies in the block of its row's quotient by 5000. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  have ht : t.val = (i 0).val / 5000 := rfl
  obtain ⟨-, -, -, -, -, -, -, -, -, -, -, -, e0, e1⟩ := idx t
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; rw [e0, ht]; omega
  | ⟨1, _⟩ => show win1_6.index t (1 : Fin 2) * 64 ≤ (i 1).val ∧ (i 1).val < win1_6.index t (1 : Fin 2) * 64 + 64; rw [e1]; omega

variable (cnt : (⟨1, ![100000]⟩ : Shape).Idx → EReal) (bias : (⟨1, ![64]⟩ : Shape).Idx → EReal)

/-- The layer of the arrays as the launch finds them. -/
abbrev spec (c : Dev nD) : S100000x64.Idx → EReal :=
  Cert.Sage.layer 100000 64 64 (V c main_call0_v37 : S100000x64.Idx → EReal) cnt (V c main_call0_v27 : S100000x64.Idx → EReal)
    (V c main_arg8 : S64x64.Idx → EReal) bias (V c main_arg10 : S64x64.Idx → EReal)

/-- WHAT BLOCK `t` WRITES BACK is block `t` of the layer of the arrays. -/
theorem flushed_eq (c : Dev nD)
    (hinv : ∀ r : Fin 100000, (V c main_call0_v15 : S100000x1.Idx → EReal) (ix2 r (0 : Fin 1)) = Ideal.div 1 (max (cnt (ix1 r)) 1))
    (hb : ∀ q : Fin 64, (V c main_call0_v38 : S1x64.Idx → EReal) (ix2 (0 : Fin 1) q) = bias (ix1 q))
    (t : Fin cfg1.N) :
    (dat1 V c).flushed 6 t = ((cfg1.win 6).blk t).view.read (Elt Ideal) (spec V cnt bias c) := by
  show (cfg1.win 6).cut (grid1.coords t) ((dat1 V c).after 6 t) = _
  rw [after1_6]
  unfold out1_6
  rw [View.canon_unit_zero zero_offsets]
  simp only [View.ld_unit_zero (S := S5000x64) zero_offsets, View.ld_unit_zero (S := S5000x1) zero_offsets,
    View.ld_unit_zero (S := S64x64) zero_offsets, View.ld_unit_zero (S := S1x64) zero_offsets]
  funext y
  obtain ⟨p, q, rfl⟩ : ∃ (p : Fin 5000) (q : Fin 64), y = ix2 p q := ⟨y 0, y 1, eq_ix2 y⟩
  have hN : cfg1.N = 20 := N_1
  have hr : 5000 * t.val + p.val < 100000 := by have := t.isLt; have := p.isLt; omega
  obtain ⟨-, -, -, -, -, -, -, -, -, -, -, -, e0, e1⟩ := idx t
  have hemb : ((cfg1.win 6).blk t).view.emb (ix2 p q) = (ix2 (⟨5000 * t.val + p.val, hr⟩ : Fin 100000) q : S100000x64.Idx) :=
    funext fun a => Fin.ext (by
      match a with
      | ⟨0, _⟩ => show win1_6.index t (0 : Fin 2) * 5000 + 1 * p.val = 5000 * t.val + p.val; rw [e0]; omega
      | ⟨1, _⟩ => show win1_6.index t (1 : Fin 2) * 64 + 1 * q.val = q.val; rw [e1]; omega)
  show k1_pay1 (iblk1 V c 0 t) (iblk1 V c 1 t) (iblk1 V c 2 t) (iblk1 V c 3 t) (iblk1 V c 5 t) (iblk1 V c 4 t) (ix2 p q)
      = spec V cnt bias c (((cfg1.win 6).blk t).view.emb (ix2 p q))
  rw [hemb]
  refine (pay_apply (iblk1 V c 0 t) (iblk1 V c 1 t) (iblk1 V c 2 t) (iblk1 V c 3 t) (iblk1 V c 5 t) (iblk1 V c 4 t) p q).trans ?_
  refine Eq.trans ?_ (Cert.Sage.entry_fused _ _ _ _ _ _)
  refine congrArg₂ max (congrArg₂ (· + ·) (congrArg₂ (· + ·) (Finset.sum_congr rfl fun k _ => ?_) (Finset.sum_congr rfl fun k _ => ?_)) ?_) rfl
  · rw [blk_msg V c t p k hr, blk_inv V c t p hr, blk_wl V c t k q, hinv]
  · rw [blk_x V c t p k hr, blk_wr V c t k q]
  · rw [blk_b V c t q, hb]

/-- THE OUTPUT ARRAY after the launch is the layer of the arrays as the launch finds them. -/
theorem final (c : Dev nD)
    (hinv : ∀ r : Fin 100000, (V c main_call0_v15 : S100000x1.Idx → EReal) (ix2 r (0 : Fin 1)) = Ideal.div 1 (max (cnt (ix1 r)) 1))
    (hb : ∀ q : Fin 64, (V c main_call0_v38 : S1x64.Idx → EReal) (ix2 (0 : Fin 1) q) = bias (ix1 q)) :
    (dat1 V c).arrAt 6 cfg1.N = spec V cnt bias c :=
  (dat1 V c).arrAt_eq_of_cover 6 (spec V cnt bias c) (fun t _ => flushed_eq V cnt bias c hinv hb t) cover

end Cert.KernelIdeal.Hand.R1

end
-- ==== Proof.Region2.lean ====
/-
  The pooled projection's launch, as one function of the arrays it finds. The launch has a single grid point: it stages the
  1024 × 64 array of per-graph feature sums, the 1024 × 1 column of reciprocal graph sizes, the 64 × 10 weight matrix and the
  bias row whole, runs the body once and writes the 1024 × 10 result back whole. The body multiplies each graph's sums by its
  reciprocal size, feeds the product to the matrix unit and adds the bias row; at the ideal values entry `(g, q)` is
  `∑ₖ (gsum (g,k) · inv (g,0)) · w (k,q) + b (0,q)`, which is the reference's `∑ₖ (gsum (g,k) / c g) · w (k,q) + b q`
  (`Sage.headEntry_fused`) when the column holds `1 / max (gcnt g) 1` and the row holds the bias.
-/
import proofs.«113252_j88648124990386_2_alg».proof.Proof.Gen.KernelIdeal.Frame
import proofs.«113252_j88648124990386_2_alg».proof.Proof.LibPlainDot
import proofs.«113252_j88648124990386_2_alg».proof.Proof.LibColumn
import proofs.«113252_j88648124990386_2_alg».proof.Proof.Sage
import Idealize.ShloMosaic.Lib.ValueLayout
import Idealize.ShloMosaic.Lib.Pipeline.Value

set_option maxRecDepth 16384

noncomputable section

namespace Cert.KernelIdeal.Hand.R2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at entry `(g, q)`. -/
theorem pay_apply (x0 : Vec Ideal S1024x64 .f32) (x1 : Vec Ideal S1024x1 .f32) (x2 : Vec Ideal S64x10 .f32)
    (x3 : Vec Ideal S1x10 .f32) (g : Fin 1024) (q : Fin 10) :
    k2_pay1 x0 x1 x2 x3 (ix2 g q)
      = (∑ k : Fin 64, (x0 (ix2 g k) * x1 (ix2 g (0 : Fin 1))) * x2 (ix2 k q)) + x3 (ix2 (0 : Fin 1) q) := by
  unfold k2_pay1
  rw [shapeCast_self, shapeCast_self, shapeCast_self]
  simp only [addf_apply]
  refine congrArg₂ (· + ·) ?_ ?_
  · refine (Cert.Lib.PlainDot.matmul_zero_apply 1024 64 10 none _ _ g q).trans (Finset.sum_congr rfl fun k _ => ?_)
    show (x0 (ix2 g k) * broadcastTo S1024x64 x1 broadcasts_S1024x1_S1024x64 (ix2 g k)) * x2 (ix2 k q) = _
    rw [Cert.Lib.Column.broadcastTo_a1_ab_apply]
  · exact broadcastTo_1b_ab_apply x3 _ g q

/-- Every window of the one point sits at block `(0, 0)`. -/
theorem idx : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem blk_gsum (c : Dev nD) (t : Fin cfg2.N) (g : Fin 1024) (k : Fin 64) :
    (iblk2 V c 0 t : Vec Ideal S1024x64 .f32) (ix2 g k) = (V c main_call0_v42 : S1024x64.Idx → EReal) (ix2 g k) := by
  obtain ⟨e0, e1, -⟩ := idx t
  show (V c main_call0_v42 : S1024x64.Idx → EReal) (((cfg2.win 0).blk t).view.emb (ix2 g k)) = _
  refine congrArg (V c main_call0_v42 : S1024x64.Idx → EReal) (funext fun a => Fin.ext ?_)
  match a with
  | ⟨0, _⟩ => show win2_0.index t (0 : Fin 2) * 1024 + 1 * g.val = g.val; rw [e0]; omega
  | ⟨1, _⟩ => show win2_0.index t (1 : Fin 2) * 64 + 1 * k.val = k.val; rw [e1]; omega

theorem blk_inv (c : Dev nD) (t : Fin cfg2.N) (g : Fin 1024) :
    (iblk2 V c 1 t : Vec Ideal S1024x1 .f32) (ix2 g (0 : Fin 1)) = (V c main_call0_v51 : S1024x1.Idx → EReal) (ix2 g (0 : Fin 1)) := by
  obtain ⟨-, -, e0, e1, -⟩ := idx t
  show (V c main_call0_v51 : S1024x1.Idx → EReal) (((cfg2.win 1).blk t).view.emb (ix2 g (0 : Fin 1))) = _
  refine congrArg (V c main_call0_v51 : S1024x1.Idx → EReal) (funext fun a => Fin.ext ?_)
  match a with
  | ⟨0, _⟩ => show win2_1.index t (0 : Fin 2) * 1024 + 1 * g.val = g.val; rw [e0]; omega
  | ⟨1, _⟩ => show win2_1.index t (1 : Fin 2) * 1 + 1 * (0 : Fin 1).val = (0 : Fin 1).val; rw [e1]; rfl

theorem blk_w (c : Dev nD) (t : Fin cfg2.N) (k : Fin 64) (q : Fin 10) :
    (iblk2 V c 2 t : Vec Ideal S64x10 .f32) (ix2 k q) = (V c main_arg11 : S64x10.Idx → EReal) (ix2 k q) := by
  obtain ⟨-, -, -, -, e0, e1, -⟩ := idx t
  show (V c main_arg11 : S64x10.Idx → EReal) (((cfg2.win 2).blk t).view.emb (ix2 k q)) = _
  refine congrArg (V c main_arg11 : S64x10.Idx → EReal) (funext fun a => Fin.ext ?_)
  match a with
  | ⟨0, _⟩ => show win2_2.index t (0 : Fin 2) * 64 + 1 * k.val = k.val; rw [e0]; omega
  | ⟨1, _⟩ => show win2_2.index t (1 : Fin 2) * 10 + 1 * q.val = q.val; rw [e1]; omega

theorem blk_b (c : Dev nD) (t : Fin cfg2.N) (q : Fin 10) :
    (iblk2 V c 3 t : Vec Ideal S1x10 .f32) (ix2 (0 : Fin 1) q) = (V c main_call0_v52 : S1x10.Idx → EReal) (ix2 (0 : Fin 1) q) := by
  obtain ⟨-, -, -, -, -, -, e0, e1, -⟩ := idx t
  show (V c main_call0_v52 : S1x10.Idx → EReal) (((cfg2.win 3).blk t).view.emb (ix2 (0 : Fin 1) q)) = _
  refine congrArg (V c main_call0_v52 : S1x10.Idx → EReal) (funext fun a => Fin.ext ?_)
  match a with
  | ⟨0, _⟩ => show win2_3.index t (0 : Fin 2) * 1 + 1 * (0 : Fin 1).val = (0 : Fin 1).val; rw [e0]; rfl
  | ⟨1, _⟩ => show win2_3.index t (1 : Fin 2) * 10 + 1 * q.val = q.val; rw [e1]; omega

theorem mem_blk (t : Fin cfg2.N) (i : S1024x10.Idx) :
    i ∈ ((cfg2.win 4).blk t).view.set ↔ ∀ a : Fin 2, win2_4.index t a * S1024x10.size a ≤ (i a).val ∧ (i a).val < win2_4.index t a * S1024x10.size a + S1024x10.size a := by
  show i ∈ ((View.whole main_v0).slice (win2_4.rect t)).set ↔ _
  rw [View.set_slice_whole, Rect.mem_set_unit]
  exact Iff.rfl

/-- The one block is the whole output. -/
theorem cover (i : S1024x10.Idx) : ∃ t : Fin cfg2.N, (cfg2.win 4).flush t = true ∧ i ∈ ((cfg2.win 4).blk t).view.set := by
  have hi0 : (i 0).val < 1024 := (i 0).isLt
  have hi1 : (i 1).val < 10 := (i 1).isLt
  obtain ⟨-, -, -, -, -, -, -, -, e0, e1⟩ := idx t2_0
  refine ⟨t2_0, flush2_4 t2_0, ?_⟩
  rw [mem_blk]
  intro a
  match a with
  | ⟨0, _⟩ => show win2_4.index t2_0 (0 : Fin 2) * 1024 ≤ (i 0).val ∧ (i 0).val < win2_4.index t2_0 (0 : Fin 2) * 1024 + 1024; rw [e0]; omega
  | ⟨1, _⟩ => show win2_4.index t2_0 (1 : Fin 2) * 10 ≤ (i 1).val ∧ (i 1).val < win2_4.index t2_0 (1 : Fin 2) * 10 + 10; rw [e1]; omega

variable (gcnt : (⟨1, ![1024]⟩ : Shape).Idx → EReal) (bias : (⟨1, ![10]⟩ : Shape).Idx → EReal)

/-- The projection of the arrays as the launch finds them. -/
abbrev spec (c : Dev nD) : S1024x10.Idx → EReal :=
  Cert.Sage.head 1024 64 10 (V c main_call0_v42 : S1024x64.Idx → EReal) gcnt (V c main_arg11 : S64x10.Idx → EReal) bias

theorem flushed_eq (c : Dev nD)
    (hinv : ∀ g : Fin 1024, (V c main_call0_v51 : S1024x1.Idx → EReal) (ix2 g (0 : Fin 1)) = Ideal.div 1 (max (gcnt (ix1 g)) 1))
    (hb : ∀ q : Fin 10, (V c main_call0_v52 : S1x10.Idx → EReal) (ix2 (0 : Fin 1) q) = bias (ix1 q))
    (t : Fin cfg2.N) :
    (dat2 V c).flushed 4 t = ((cfg2.win 4).blk t).view.read (Elt Ideal) (spec V gcnt bias c) := by
  show (cfg2.win 4).cut (grid2.coords t) ((dat2 V c).after 4 t) = _
  rw [after2_4]
  unfold out2_4
  rw [View.canon_unit_zero zero_offsets]
  simp only [View.ld_unit_zero (S := S1024x64) zero_offsets, View.ld_unit_zero (S := S1024x1) zero_offsets,
    View.ld_unit_zero (S := S64x10) zero_offsets, View.ld_unit_zero (S := S1x10) zero_offsets]
  funext y
  obtain ⟨g, q, rfl⟩ : ∃ (g : Fin 1024) (q : Fin 10), y = ix2 g q := ⟨y 0, y 1, eq_ix2 y⟩
  obtain ⟨-, -, -, -, -, -, -, -, e0, e1⟩ := idx t
  have hemb : ((cfg2.win 4).blk t).view.emb (ix2 g q) = (ix2 g q : S1024x10.Idx) :=
    funext fun a => Fin.ext (by
      match a with
      | ⟨0, _⟩ => show win2_4.index t (0 : Fin 2) * 1024 + 1 * g.val = g.val; rw [e0]; omega
      | ⟨1, _⟩ => show win2_4.index t (1 : Fin 2) * 10 + 1 * q.val = q.val; rw [e1]; omega)
  show k2_pay1 (iblk2 V c 0 t) (iblk2 V c 1 t) (iblk2 V c 2 t) (iblk2 V c 3 t) (ix2 g q)
      = spec V gcnt bias c (((cfg2.win 4).blk t).view.emb (ix2 g q))
  rw [hemb]
  refine (pay_apply (iblk2 V c 0 t) (iblk2 V c 1 t) (iblk2 V c 2 t) (iblk2 V c 3 t) g q).trans ?_
  refine Eq.trans ?_ (Cert.Sage.headEntry_fused _ _ _ _)
  refine congrArg₂ (· + ·) (Finset.sum_congr rfl fun k _ => ?_) ?_
  · rw [blk_gsum V c t g k, blk_inv V c t g, blk_w V c t k q, hinv]
  · rw [blk_b V c t q, hb]

/-- THE OUTPUT ARRAY after the launch is the projection of the arrays as the launch finds them. -/
theorem final (c : Dev nD)
    (hinv : ∀ g : Fin 1024, (V c main_call0_v51 : S1024x1.Idx → EReal) (ix2 g (0 : Fin 1)) = Ideal.div 1 (max (gcnt (ix1 g)) 1))
    (hb : ∀ q : Fin 10, (V c main_call0_v52 : S1x10.Idx → EReal) (ix2 (0 : Fin 1) q) = bias (ix1 q)) :
    (dat2 V c).arrAt 4 cfg2.N = spec V gcnt bias c :=
  (dat2 V c).arrAt_eq_of_cover 4 (spec V gcnt bias c) (fun t _ => flushed_eq V gcnt bias c hinv hb t) cover

end Cert.KernelIdeal.Hand.R2

end
-- ==== Proof.RefLayers.lean ====
/-
  The reference's three stages, each read as one array function. The reference computes a layer as
  `relu ((msg / max(cnt,1)[:,None]) @ W_l + b + x @ W_r)` and the pooled projection as `(gsum / max(gcnt,1)[:,None]) @ W + b`.
  Read entry by entry through the generated read-at-an-index lemmas — a `dot_general` as the sum over its contracted
  axis, each broadcast as the operand at the surviving coordinates, `1.0` and `0.0` as the numbers one and zero — the first
  is `Sage.layer` and the second `Sage.head` of the stage's operands: the summed neighbour features `msg`, the neighbour
  counts `cnt`, the previous features `x`, the weights and the bias. The gathers and scatter-sums that produce `msg`, `cnt`,
  `gsum` and `gcnt` are left as the stages they are: the kernel's program applies the same ones.
-/
import proofs.«113252_j88648124990386_2_alg».proof.Proof.Gen.ReferenceIdeal.Read
import proofs.«113252_j88648124990386_2_alg».proof.Proof.Sage

noncomputable section

namespace Cert.ReferenceIdeal.Layers

open Cert.ReferenceIdeal Cert.ReferenceIdeal.Read
open Idealize.ShloMosaic Idealize.ShloMosaic.ValueIdx

/-- The first layer of the reference. -/
theorem layer1 (x0 : (⟨S100000, .i32⟩ : BufTy).Contents (Elt Ideal)) (x1 x2 : (⟨S1200000, .i32⟩ : BufTy).Contents (Elt Ideal)) (x4 : (⟨S10000x32, .f32⟩ : BufTy).Contents (Elt Ideal)) (x5 : (⟨S32x64, .f32⟩ : BufTy).Contents (Elt Ideal)) (x6 : (⟨S64, .f32⟩ : BufTy).Contents (Elt Ideal)) (x7 : (⟨S32x64, .f32⟩ : BufTy).Contents (Elt Ideal)) :
    val_main_v32 (F := Ideal) x0 x1 x2 x4 x5 x6 x7
      = Cert.Sage.layer 100000 32 64 (val_main_v16 (F := Ideal) x0 x1 x2 x4) (val_main_v20 (F := Ideal) x2) (val_main_v6 (F := Ideal) x0 x4) x5 x6 x7 := by
  funext i
  obtain ⟨r, q, rfl⟩ : ∃ (r : Fin 100000) (q : Fin 64), i = ix2 r q := ⟨i 0, i 1, eq_ix2 i⟩
  rw [Cert.Sage.layer_apply]
  rw [val_main_v32_apply, val_main_v31_apply, val_main_v29_apply, val_main_v26_apply, val_main_v30_apply, val_main_v28_apply, val_main_v27_apply, val_main_call0_v0_apply, val_main_call0_cst_apply]
  unfold Cert.Sage.entry
  simp only [Ideal.maximumf_def, Ideal.addf_def, Ideal.ofBits_def]
  refine congrArg₂ max (congrArg₂ (· + ·) (congrArg₂ (· + ·) (Finset.sum_congr rfl fun k _ => ?_) ?_) (Finset.sum_congr rfl fun k _ => ?_)) Cert.Sage.zero_word
  · have hl : lidx_main_v26 (ix2 r q) k = ix2 r k := funext fun a => Fin.ext (by
      match a with
      | ⟨0, _⟩ => rfl
      | ⟨1, _⟩ => rfl)
    have hr : ridx_main_v26 (ix2 r q) k = ix2 k q := funext fun a => Fin.ext (by
      match a with
      | ⟨0, _⟩ => rfl
      | ⟨1, _⟩ => rfl)
    rw [hl, hr, val_main_v25_apply, val_main_v24_apply, val_main_v23_apply, val_main_v22_apply, val_main_v21_apply, val_main_cst_5_apply]
    have hi : idx_main_v23 (idx_main_v24 (ix2 r k)) = ix1 r := funext fun a => Fin.ext (by
      match a with
      | ⟨0, _⟩ => rfl)
    rw [hi]
    simp only [Ideal.maximumf_def, Ideal.hostDivf_def, Ideal.ofBits_def, Cert.Sage.one_word]
  · exact congrArg x6 (funext fun a => Fin.ext (by
      match a with
      | ⟨0, _⟩ => rfl))
  · have hl : lidx_main_v30 (ix2 r q) k = ix2 r k := funext fun a => Fin.ext (by
      match a with
      | ⟨0, _⟩ => rfl
      | ⟨1, _⟩ => rfl)
    have hr : ridx_main_v30 (ix2 r q) k = ix2 k q := funext fun a => Fin.ext (by
      match a with
      | ⟨0, _⟩ => rfl
      | ⟨1, _⟩ => rfl)
    rw [hl, hr]

/-- The second layer of the reference. -/
theorem layer2 (x0 : (⟨S100000, .i32⟩ : BufTy).Contents (Elt Ideal)) (x1 x2 : (⟨S1200000, .i32⟩ : BufTy).Contents (Elt Ideal)) (x4 : (⟨S10000x32, .f32⟩ : BufTy).Contents (Elt Ideal)) (x5 : (⟨S32x64, .f32⟩ : BufTy).Contents (Elt Ideal)) (x6 : (⟨S64, .f32⟩ : BufTy).Contents (Elt Ideal)) (x7 : (⟨S32x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) :
    val_main_v58 (F := Ideal) x0 x1 x2 x4 x5 x6 x7 x8 x9 x10
      = Cert.Sage.layer 100000 64 64 (val_main_v42 (F := Ideal) x0 x1 x2 x4 x5 x6 x7) (val_main_v46 (F := Ideal) x2) (val_main_v32 (F := Ideal) x0 x1 x2 x4 x5 x6 x7) x8 x9 x10 := by
  funext i
  obtain ⟨r, q, rfl⟩ : ∃ (r : Fin 100000) (q : Fin 64), i = ix2 r q := ⟨i 0, i 1, eq_ix2 i⟩
  rw [Cert.Sage.layer_apply]
  rw [val_main_v58_apply, val_main_v57_apply, val_main_v55_apply, val_main_v52_apply, val_main_v56_apply, val_main_v54_apply, val_main_v53_apply, val_main_call1_v0_apply, val_main_call1_cst_apply]
  unfold Cert.Sage.entry
  simp only [Ideal.maximumf_def, Ideal.addf_def, Ideal.ofBits_def]
  refine congrArg₂ max (congrArg₂ (· + ·) (congrArg₂ (· + ·) (Finset.sum_congr rfl fun k _ => ?_) ?_) (Finset.sum_congr rfl fun k _ => ?_)) Cert.Sage.zero_word
  · have hl : lidx_main_v52 (ix2 r q) k = ix2 r k := funext fun a => Fin.ext (by
      match a with
      | ⟨0, _⟩ => rfl
      | ⟨1, _⟩ => rfl)
    have hr : ridx_main_v52 (ix2 r q) k = ix2 k q := funext fun a => Fin.ext (by
      match a with
      | ⟨0, _⟩ => rfl
      | ⟨1, _⟩ => rfl)
    rw [hl, hr, val_main_v51_apply, val_main_v50_apply, val_main_v49_apply, val_main_v48_apply, val_main_v47_apply, val_main_cst_11_apply]
    have hi : idx_main_v49 (idx_main_v50 (ix2 r k)) = ix1 r := funext fun a => Fin.ext (by
      match a with
      | ⟨0, _⟩ => rfl)
    rw [hi]
    simp only [Ideal.maximumf_def, Ideal.hostDivf_def, Ideal.ofBits_def, Cert.Sage.one_word]
  · exact congrArg x9 (funext fun a => Fin.ext (by
      match a with
      | ⟨0, _⟩ => rfl))
  · have hl : lidx_main_v56 (ix2 r q) k = ix2 r k := funext fun a => Fin.ext (by
      match a with
      | ⟨0, _⟩ => rfl
      | ⟨1, _⟩ => rfl)
    have hr : ridx_main_v56 (ix2 r q) k = ix2 k q := funext fun a => Fin.ext (by
      match a with
      | ⟨0, _⟩ => rfl
      | ⟨1, _⟩ => rfl)
    rw [hl, hr]

/-- The pooled projection of the reference. -/
theorem head (x0 : (⟨S100000, .i32⟩ : BufTy).Contents (Elt Ideal)) (x1 x2 : (⟨S1200000, .i32⟩ : BufTy).Contents (Elt Ideal)) (x3 : (⟨S100000, .i32⟩ : BufTy).Contents (Elt Ideal)) (x4 : (⟨S10000x32, .f32⟩ : BufTy).Contents (Elt Ideal)) (x5 : (⟨S32x64, .f32⟩ : BufTy).Contents (Elt Ideal)) (x6 : (⟨S64, .f32⟩ : BufTy).Contents (Elt Ideal)) (x7 : (⟨S32x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x10, .f32⟩ : BufTy).Contents (Elt Ideal)) (x12 : (⟨S10, .f32⟩ : BufTy).Contents (Elt Ideal)) :
    val_main_v74 (F := Ideal) x0 x1 x2 x3 x4 x5 x6 x7 x8 x9 x10 x11 x12
      = Cert.Sage.head 1024 64 10 (val_main_v61 (F := Ideal) x0 x1 x2 x3 x4 x5 x6 x7 x8 x9 x10) (val_main_v65 (F := Ideal) x3) x11 x12 := by
  funext i
  obtain ⟨g, q, rfl⟩ : ∃ (g : Fin 1024) (q : Fin 10), i = ix2 g q := ⟨i 0, i 1, eq_ix2 i⟩
  rw [Cert.Sage.head_apply]
  rw [val_main_v74_apply, val_main_v71_apply, val_main_v73_apply, val_main_v72_apply]
  unfold Cert.Sage.headEntry
  simp only [Ideal.addf_def]
  refine congrArg₂ (· + ·) (Finset.sum_congr rfl fun k _ => ?_) ?_
  · have hl : lidx_main_v71 (ix2 g q) k = ix2 g k := funext fun a => Fin.ext (by
      match a with
      | ⟨0, _⟩ => rfl
      | ⟨1, _⟩ => rfl)
    have hr : ridx_main_v71 (ix2 g q) k = ix2 k q := funext fun a => Fin.ext (by
      match a with
      | ⟨0, _⟩ => rfl
      | ⟨1, _⟩ => rfl)
    rw [hl, hr, val_main_v70_apply, val_main_v69_apply, val_main_v68_apply, val_main_v67_apply, val_main_v66_apply, val_main_cst_15_apply]
    have hi : idx_main_v68 (idx_main_v69 (ix2 g k)) = ix1 g := funext fun a => Fin.ext (by
      match a with
      | ⟨0, _⟩ => rfl)
    rw [hi]
    simp only [Ideal.maximumf_def, Ideal.hostDivf_def, Ideal.ofBits_def, Cert.Sage.one_word]
  · exact congrArg x12 (funext fun a => Fin.ext (by
      match a with
      | ⟨0, _⟩ => rfl))

end Cert.ReferenceIdeal.Layers

end
-- ==== Proof.HostKeep.lean ====
/-
  What the host stretches and the launches leave alone. An argument array is written by no host operation and by no
  launch, so at every boundary it still holds its launch contents; the column of reciprocal neighbour counts is computed
  once, before the first launch, read by the first two launches through an input window and written by nothing after; the
  first layer's output is read, not written, by the second stretch. Each fact walks the boundary contents back one
  segment at a time: across a host stretch because no operation of it writes the buffer, across a launch because the
  buffer is none of its arrays or is the array of an input window.
-/
import proofs.«113252_j88648124990386_2_alg».proof.Proof.Gen.KernelIdeal.Frame

set_option maxRecDepth 16384

noncomputable section

namespace Cert.KernelIdeal.Hand.Keep

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The arguments, boundary by boundary -/

theorem w1_arg1 (c : Dev nD) : W1 m ρ c (Proc.devRef .tc main_arg1) = (m ((c : Thread nD τ).loc main_arg1)) :=
  (StableHlo.after_of_forall_not_mem (b := Proc.devRef .tc main_arg1) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans rfl

theorem w1_arg2 (c : Dev nD) : W1 m ρ c (Proc.devRef .tc main_arg2) = (m ((c : Thread nD τ).loc main_arg2)) :=
  (StableHlo.after_of_forall_not_mem (b := Proc.devRef .tc main_arg2) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans rfl

theorem w1_arg3 (c : Dev nD) : W1 m ρ c (Proc.devRef .tc main_arg3) = (m ((c : Thread nD τ).loc main_arg3)) :=
  (StableHlo.after_of_forall_not_mem (b := Proc.devRef .tc main_arg3) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans rfl

theorem w1_arg5 (c : Dev nD) : W1 m ρ c (Proc.devRef .tc main_arg5) = (m ((c : Thread nD τ).loc main_arg5)) :=
  (StableHlo.after_of_forall_not_mem (b := Proc.devRef .tc main_arg5) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans rfl

theorem w1_arg7 (c : Dev nD) : W1 m ρ c (Proc.devRef .tc main_arg7) = (m ((c : Thread nD τ).loc main_arg7)) :=
  (StableHlo.after_of_forall_not_mem (b := Proc.devRef .tc main_arg7) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans rfl

theorem w1_arg8 (c : Dev nD) : W1 m ρ c (Proc.devRef .tc main_arg8) = (m ((c : Thread nD τ).loc main_arg8)) :=
  (StableHlo.after_of_forall_not_mem (b := Proc.devRef .tc main_arg8) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans rfl

theorem w1_arg9 (c : Dev nD) : W1 m ρ c (Proc.devRef .tc main_arg9) = (m ((c : Thread nD τ).loc main_arg9)) :=
  (StableHlo.after_of_forall_not_mem (b := Proc.devRef .tc main_arg9) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans rfl

theorem w1_arg10 (c : Dev nD) : W1 m ρ c (Proc.devRef .tc main_arg10) = (m ((c : Thread nD τ).loc main_arg10)) :=
  (StableHlo.after_of_forall_not_mem (b := Proc.devRef .tc main_arg10) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans rfl

theorem w1_arg11 (c : Dev nD) : W1 m ρ c (Proc.devRef .tc main_arg11) = (m ((c : Thread nD τ).loc main_arg11)) :=
  (StableHlo.after_of_forall_not_mem (b := Proc.devRef .tc main_arg11) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans rfl

theorem w1_arg12 (c : Dev nD) : W1 m ρ c (Proc.devRef .tc main_arg12) = (m ((c : Thread nD τ).loc main_arg12)) :=
  (StableHlo.after_of_forall_not_mem (b := Proc.devRef .tc main_arg12) _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans rfl

theorem w2_arg1 (c : Dev nD) : W2 m ρ c (Proc.devRef .tc main_arg1) = (m ((c : Thread nD τ).loc main_arg1)) :=
  (W2_of_ne m ρ c main_arg1 (by decide)).trans (w1_arg1 m ρ c)

theorem w2_arg2 (c : Dev nD) : W2 m ρ c (Proc.devRef .tc main_arg2) = (m ((c : Thread nD τ).loc main_arg2)) :=
  (W2_of_ne m ρ c main_arg2 (by decide)).trans (w1_arg2 m ρ c)

theorem w2_arg3 (c : Dev nD) : W2 m ρ c (Proc.devRef .tc main_arg3) = (m ((c : Thread nD τ).loc main_arg3)) :=
  (W2_of_ne m ρ c main_arg3 (by decide)).trans (w1_arg3 m ρ c)

theorem w2_arg8 (c : Dev nD) : W2 m ρ c (Proc.devRef .tc main_arg8) = (m ((c : Thread nD τ).loc main_arg8)) :=
  (W2_of_ne m ρ c main_arg8 (by decide)).trans (w1_arg8 m ρ c)

theorem w2_arg9 (c : Dev nD) : W2 m ρ c (Proc.devRef .tc main_arg9) = (m ((c : Thread nD τ).loc main_arg9)) :=
  (W2_of_ne m ρ c main_arg9 (by decide)).trans (w1_arg9 m ρ c)

theorem w2_arg10 (c : Dev nD) : W2 m ρ c (Proc.devRef .tc main_arg10) = (m ((c : Thread nD τ).loc main_arg10)) :=
  (W2_of_ne m ρ c main_arg10 (by decide)).trans (w1_arg10 m ρ c)

theorem w2_arg11 (c : Dev nD) : W2 m ρ c (Proc.devRef .tc main_arg11) = (m ((c : Thread nD τ).loc main_arg11)) :=
  (W2_of_ne m ρ c main_arg11 (by decide)).trans (w1_arg11 m ρ c)

theorem w2_arg12 (c : Dev nD) : W2 m ρ c (Proc.devRef .tc main_arg12) = (m ((c : Thread nD τ).loc main_arg12)) :=
  (W2_of_ne m ρ c main_arg12 (by decide)).trans (w1_arg12 m ρ c)

theorem w3_arg3 (c : Dev nD) : W3 m ρ c (Proc.devRef .tc main_arg3) = (m ((c : Thread nD τ).loc main_arg3)) :=
  (StableHlo.after_of_forall_not_mem (b := Proc.devRef .tc main_arg3) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (w2_arg3 m ρ c)

theorem w3_arg8 (c : Dev nD) : W3 m ρ c (Proc.devRef .tc main_arg8) = (m ((c : Thread nD τ).loc main_arg8)) :=
  (StableHlo.after_of_forall_not_mem (b := Proc.devRef .tc main_arg8) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (w2_arg8 m ρ c)

theorem w3_arg10 (c : Dev nD) : W3 m ρ c (Proc.devRef .tc main_arg10) = (m ((c : Thread nD τ).loc main_arg10)) :=
  (StableHlo.after_of_forall_not_mem (b := Proc.devRef .tc main_arg10) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (w2_arg10 m ρ c)

theorem w3_arg11 (c : Dev nD) : W3 m ρ c (Proc.devRef .tc main_arg11) = (m ((c : Thread nD τ).loc main_arg11)) :=
  (StableHlo.after_of_forall_not_mem (b := Proc.devRef .tc main_arg11) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (w2_arg11 m ρ c)

theorem w3_arg12 (c : Dev nD) : W3 m ρ c (Proc.devRef .tc main_arg12) = (m ((c : Thread nD τ).loc main_arg12)) :=
  (StableHlo.after_of_forall_not_mem (b := Proc.devRef .tc main_arg12) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (w2_arg12 m ρ c)

theorem w4_arg3 (c : Dev nD) : W4 m ρ c (Proc.devRef .tc main_arg3) = (m ((c : Thread nD τ).loc main_arg3)) :=
  (W4_of_ne m ρ c main_arg3 (by decide)).trans (w3_arg3 m ρ c)

theorem w4_arg11 (c : Dev nD) : W4 m ρ c (Proc.devRef .tc main_arg11) = (m ((c : Thread nD τ).loc main_arg11)) :=
  (W4_of_ne m ρ c main_arg11 (by decide)).trans (w3_arg11 m ρ c)

theorem w4_arg12 (c : Dev nD) : W4 m ρ c (Proc.devRef .tc main_arg12) = (m ((c : Thread nD τ).loc main_arg12)) :=
  (W4_of_ne m ρ c main_arg12 (by decide)).trans (w3_arg12 m ρ c)

theorem w5_arg11 (c : Dev nD) : W5 m ρ c (Proc.devRef .tc main_arg11) = (m ((c : Thread nD τ).loc main_arg11)) :=
  (StableHlo.after_of_forall_not_mem (b := Proc.devRef .tc main_arg11) _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (w4_arg11 m ρ c)

/-! ## The reciprocal counts and the first layer's output, carried forward -/

/-- The first launch reads the reciprocal-count column through an input window: it leaves it as it found it. -/
theorem w2_inv (c : Dev nD) : W2 m ρ c (Proc.devRef .tc main_call0_v15) = V1 m ρ c main_call0_v15 :=
  (W2_arr m ρ c 1).trans (((dat0 (V1 m ρ) c).arrAt_in 1 rfl _).trans (A_eq0 (V1 m ρ) c 1))

/-- No operation of the second stretch writes it. -/
theorem w3_inv (c : Dev nD) : W3 m ρ c (Proc.devRef .tc main_call0_v15) = V1 m ρ c main_call0_v15 :=
  (StableHlo.after_of_forall_not_mem (b := Proc.devRef .tc main_call0_v15) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))).trans (w2_inv m ρ c)

/-- Nor the first layer's output. -/
theorem w3_x1 (c : Dev nD) : W3 m ρ c (Proc.devRef .tc main_call0_v27) = W2 m ρ c (Proc.devRef .tc main_call0_v27) :=
  StableHlo.after_of_forall_not_mem (b := Proc.devRef .tc main_call0_v27) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

end Cert.KernelIdeal.Hand.Keep

end
-- ==== Proof.Host0Msg.lean ====
/-
  What the first launch finds, one array at a time: the summed neighbour embeddings. The host gathers each node's
  embedding row and sums, over each node's incoming edges, the source nodes' rows — the reference's own stage of the
  argument arrays, read off the host stretch's fold and never opened.
-/
import proofs.«113252_j88648124990386_2_alg».proof.Proof.Gen.KernelIdeal.Frame
import proofs.«113252_j88648124990386_2_alg».proof.Proof.Gen.ReferenceIdeal.Read
import proofs.«113252_j88648124990386_2_alg».proof.Proof.HostKeep
import proofs.«113252_j88648124990386_2_alg».proof.Proof.LibColumn
import proofs.«113252_j88648124990386_2_alg».proof.Proof.Sage
import Idealize.ShloMosaic.Lib.StableHlo.Run
import Idealize.ShloMosaic.Lib.ValueLayout

set_option maxRecDepth 16384

noncomputable section

namespace Cert.KernelIdeal.Hand.Host0

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read

variable (m : (ℓ : Loc nD τ sig) → Buf (Elt Ideal) ℓ) (ρ : Dev nD → PrngReg)

set_option maxHeartbeats 8000000 in
/-- The summed neighbour embeddings (from ANY contents `W` at the stretch's entry). -/
theorem msg_of (W : Valuation τ sig (Elt Ideal)) :
    (StableHlo.after hostOps0 W (Proc.devRef .tc main_call0_v25) : S100000x32.Idx → EReal)
      = val_main_v16 (F := Ideal) (W (Proc.devRef .tc main_arg0)) (W (Proc.devRef .tc main_arg1)) (W (Proc.devRef .tc main_arg2)) (W (Proc.devRef .tc main_arg4)) := by
  dsimp only [hostOps0]
  after_results
  rfl

/-- The summed neighbour embeddings the first launch finds: the reference's stage of the argument arrays. -/
theorem msg (c : Dev nD) : (V1 m ρ c main_call0_v25 : S100000x32.Idx → EReal)
    = val_main_v16 (F := Ideal) (m ((c : Thread nD τ).loc main_arg0)) (m ((c : Thread nD τ).loc main_arg1)) (m ((c : Thread nD τ).loc main_arg2)) (m ((c : Thread nD τ).loc main_arg4)) :=
  msg_of (W0 m ρ c)

end Cert.KernelIdeal.Hand.Host0

end
-- ==== Proof.Host0X.lean ====
/-
  What the first launch finds: the nodes' own embeddings, the reference's gather of the embedding table by the node ids.
-/
import proofs.«113252_j88648124990386_2_alg».proof.Proof.Gen.KernelIdeal.Frame
import proofs.«113252_j88648124990386_2_alg».proof.Proof.Gen.ReferenceIdeal.Read
import proofs.«113252_j88648124990386_2_alg».proof.Proof.HostKeep
import proofs.«113252_j88648124990386_2_alg».proof.Proof.LibColumn
import proofs.«113252_j88648124990386_2_alg».proof.Proof.Sage
import Idealize.ShloMosaic.Lib.StableHlo.Run
import Idealize.ShloMosaic.Lib.ValueLayout

set_option maxRecDepth 16384

noncomputable section

namespace Cert.KernelIdeal.Hand.Host0

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read

variable (m : (ℓ : Loc nD τ sig) → Buf (Elt Ideal) ℓ) (ρ : Dev nD → PrngReg)

set_option maxHeartbeats 8000000 in
/-- The nodes' own embeddings (from ANY contents `W` at the stretch's entry). -/
theorem x_of (W : Valuation τ sig (Elt Ideal)) :
    (StableHlo.after hostOps0 W (Proc.devRef .tc main_call0_v6) : S100000x32.Idx → EReal)
      = val_main_v6 (F := Ideal) (W (Proc.devRef .tc main_arg0)) (W (Proc.devRef .tc main_arg4)) := by
  dsimp only [hostOps0]
  after_results
  rfl

/-- The nodes' own embeddings the first launch finds. -/
theorem x (c : Dev nD) : (V1 m ρ c main_call0_v6 : S100000x32.Idx → EReal)
    = val_main_v6 (F := Ideal) (m ((c : Thread nD τ).loc main_arg0)) (m ((c : Thread nD τ).loc main_arg4)) :=
  x_of (W0 m ρ c)

end Cert.KernelIdeal.Hand.Host0

end
-- ==== Proof.Host0Inv.lean ====
/-
  What the first launch finds: the reciprocal neighbour counts. The host sums the constant one over each node's incoming
  edges, clamps the count at one, divides one by it and reshapes the result to a column; row `r` of the column is
  `1 / max (cnt r) 1` with `cnt` the reference's count stage. The stretch is read in two parts, cut after the count: the
  count itself is compared with the reference's stage as an array, and everything after it is read at one entry over an
  arbitrary count, so that the sum over the edges is never opened.
-/
import proofs.«113252_j88648124990386_2_alg».proof.Proof.Gen.KernelIdeal.Frame
import proofs.«113252_j88648124990386_2_alg».proof.Proof.Gen.ReferenceIdeal.Read
import proofs.«113252_j88648124990386_2_alg».proof.Proof.HostKeep
import proofs.«113252_j88648124990386_2_alg».proof.Proof.LibColumn
import proofs.«113252_j88648124990386_2_alg».proof.Proof.Sage
import Idealize.ShloMosaic.Lib.StableHlo.Run
import Idealize.ShloMosaic.Lib.ValueLayout

set_option maxRecDepth 16384

noncomputable section

namespace Cert.KernelIdeal.Hand.Host0

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read

variable (m : (ℓ : Loc nD τ sig) → Buf (Elt Ideal) ℓ) (ρ : Dev nD → PrngReg)

/-- The contents after a concatenated line are those after its second part, from those after its first. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

set_option maxHeartbeats 4000000 in
/-- THE TAIL of the stretch, from ANY contents `F` after the count: row `r` of the reciprocal column is one over the
    count's entry clamped at one — the reshape read at `(r, 0)`, then the quotient, the clamp and the two broadcasts of the
    constant one at entry `r`. -/
theorem inv_tail (F : Valuation τ sig (Elt Ideal)) (r : Fin 100000) :
    (StableHlo.after (hostOps0.drop 15) F (Proc.devRef .tc main_call0_v15) : S100000x1.Idx → EReal) (ix2 r (0 : Fin 1))
      = Ideal.div 1 (max ((F (Proc.devRef .tc main_call0_v10) : S100000.Idx → EReal) (ix1 r)) 1) := by
  simp only [hostOps0, List.drop_succ_cons, List.drop_zero]
  after_results
  refine (Cert.Lib.Column.shapeCast_a_a1_apply _ _ r 0).trans ?_
  refine Eq.trans (b := Ideal.div (Ideal.ofBits .f32 0x3F800000#32)
    (max ((F (Proc.devRef .tc main_call0_v10) : S100000.Idx → EReal) (ix1 r)) (Ideal.ofBits .f32 0x3F800000#32))) rfl ?_
  rw [Cert.Sage.one_word]

set_option maxHeartbeats 4000000 in
/-- THE HEAD of the stretch, from ANY contents `W` at its entry: the count is the reference's count stage (the constant one summed over each node's incoming edges). -/
theorem cnt_head (W : Valuation τ sig (Elt Ideal)) :
    (StableHlo.after (hostOps0.take 15) W (Proc.devRef .tc main_call0_v10) : S100000.Idx → EReal)
      = val_main_v20 (F := Ideal) (W (Proc.devRef .tc main_arg2)) := by
  simp only [hostOps0, List.take_succ_cons, List.take_zero]
  after_results
  rfl

/-- Row `r` of the reciprocal column, from ANY contents `W` at the stretch's entry. -/
theorem inv_of (W : Valuation τ sig (Elt Ideal)) (r : Fin 100000) :
    (StableHlo.after hostOps0 W (Proc.devRef .tc main_call0_v15) : S100000x1.Idx → EReal) (ix2 r (0 : Fin 1))
      = Ideal.div 1 (max (val_main_v20 (F := Ideal) (W (Proc.devRef .tc main_arg2)) (ix1 r)) 1) := by
  have e : StableHlo.after (hostOps0 : List (HloOp τ sig (Elt Ideal))) W
      = StableHlo.after (hostOps0.drop 15) (StableHlo.after (hostOps0.take 15) W) := by
    rw [← after_append, List.take_append_drop]
  rw [e, inv_tail, cnt_head]

/-- Row `r` of the column the first launch finds. -/
theorem inv (c : Dev nD) (r : Fin 100000) : (V1 m ρ c main_call0_v15 : S100000x1.Idx → EReal) (ix2 r (0 : Fin 1))
    = Ideal.div 1 (max (val_main_v20 (F := Ideal) (m ((c : Thread nD τ).loc main_arg2)) (ix1 r)) 1) :=
  inv_of (W0 m ρ c) r

end Cert.KernelIdeal.Hand.Host0

end
-- ==== Proof.Host0Bias.lean ====
/-
  What the first launch finds: the first bias reshaped to a row.
-/
import proofs.«113252_j88648124990386_2_alg».proof.Proof.Gen.KernelIdeal.Frame
import proofs.«113252_j88648124990386_2_alg».proof.Proof.Gen.ReferenceIdeal.Read
import proofs.«113252_j88648124990386_2_alg».proof.Proof.HostKeep
import proofs.«113252_j88648124990386_2_alg».proof.Proof.LibColumn
import proofs.«113252_j88648124990386_2_alg».proof.Proof.Sage
import Idealize.ShloMosaic.Lib.StableHlo.Run
import Idealize.ShloMosaic.Lib.ValueLayout

set_option maxRecDepth 16384

noncomputable section

namespace Cert.KernelIdeal.Hand.Host0

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read

variable (m : (ℓ : Loc nD τ sig) → Buf (Elt Ideal) ℓ) (ρ : Dev nD → PrngReg)

set_option maxHeartbeats 8000000 in
/-- The first bias, as a row (from ANY contents `W` at the stretch's entry). -/
theorem bias_of (W : Valuation τ sig (Elt Ideal)) :
    (StableHlo.after hostOps0 W (Proc.devRef .tc main_call0_v26) : S1x64.Idx → EReal)
      = shapeCast S1x64 ((W (Proc.devRef .tc main_arg6)) : S64.Idx → EReal) shapeCasts_S64_S1x64 := by
  dsimp only [hostOps0]
  after_results
  rfl

theorem bias_arr (c : Dev nD) : (V1 m ρ c main_call0_v26 : S1x64.Idx → EReal)
    = shapeCast S1x64 ((m ((c : Thread nD τ).loc main_arg6)) : S64.Idx → EReal) shapeCasts_S64_S1x64 :=
  bias_of (W0 m ρ c)
theorem bias (c : Dev nD) (q : Fin 64) : (V1 m ρ c main_call0_v26 : S1x64.Idx → EReal) (ix2 (0 : Fin 1) q)
    = ((m ((c : Thread nD τ).loc main_arg6)) : S64.Idx → EReal) (ix1 q) := by
  rw [bias_arr]
  exact shapeCast_a_1a_apply _ _ 0 q

end Cert.KernelIdeal.Hand.Host0

end
-- ==== Proof.Host0.lean ====
/-
  What the first launch finds: its two weight matrices are argument arrays, as launched; the other four arrays are read in
  the modules this one gathers.
-/
import proofs.«113252_j88648124990386_2_alg».proof.Proof.Gen.KernelIdeal.Frame
import proofs.«113252_j88648124990386_2_alg».proof.Proof.Gen.ReferenceIdeal.Read
import proofs.«113252_j88648124990386_2_alg».proof.Proof.HostKeep
import proofs.«113252_j88648124990386_2_alg».proof.Proof.LibColumn
import proofs.«113252_j88648124990386_2_alg».proof.Proof.Sage
import proofs.«113252_j88648124990386_2_alg».proof.Proof.Host0Msg
import proofs.«113252_j88648124990386_2_alg».proof.Proof.Host0X
import proofs.«113252_j88648124990386_2_alg».proof.Proof.Host0Inv
import proofs.«113252_j88648124990386_2_alg».proof.Proof.Host0Bias
import Idealize.ShloMosaic.Lib.StableHlo.Run
import Idealize.ShloMosaic.Lib.ValueLayout

set_option maxRecDepth 16384

noncomputable section

namespace Cert.KernelIdeal.Hand.Host0

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read

variable (m : (ℓ : Loc nD τ sig) → Buf (Elt Ideal) ℓ) (ρ : Dev nD → PrngReg)

/-- The two weight matrices are arguments: as launched. -/
theorem wl (c : Dev nD) : V1 m ρ c main_arg5 = (m ((c : Thread nD τ).loc main_arg5)) := Keep.w1_arg5 m ρ c
theorem wr (c : Dev nD) : V1 m ρ c main_arg7 = (m ((c : Thread nD τ).loc main_arg7)) := Keep.w1_arg7 m ρ c

end Cert.KernelIdeal.Hand.Host0

end
-- ==== Proof.Host1.lean ====
/-
  What the second launch finds. Between the launches the host gathers, for every edge, the first layer's output row of
  the source node and sums these over each node's incoming edges, and reshapes the second bias to a row; the reciprocal
  counts are the column computed before the first launch, untouched since. The gather and the sum are the reference's own
  (`msg2` below is its stage as a function of the previous layer's output), so once the first layer's output is known to be
  the reference's first layer, the summed features are the reference's stage too.
-/
import proofs.«113252_j88648124990386_2_alg».proof.Proof.Gen.KernelIdeal.Frame
import proofs.«113252_j88648124990386_2_alg».proof.Proof.Gen.ReferenceIdeal.Read
import proofs.«113252_j88648124990386_2_alg».proof.Proof.HostKeep
import proofs.«113252_j88648124990386_2_alg».proof.Proof.LibColumn
import proofs.«113252_j88648124990386_2_alg».proof.Proof.Sage
import Idealize.ShloMosaic.Lib.StableHlo.Run
import Idealize.ShloMosaic.Lib.ValueLayout

set_option maxRecDepth 16384

noncomputable section

namespace Cert.KernelIdeal.Hand.Host1

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read

variable (m : (ℓ : Loc nD τ sig) → Buf (Elt Ideal) ℓ) (ρ : Dev nD → PrngReg)

/-- The second layer's summed neighbour features, from the previous layer's output `X` and the two edge lists. -/
def msg2 (X : FVec Ideal Cert.ReferenceIdeal.S100000x64 .f32) (x1 x2 : (⟨Cert.ReferenceIdeal.S1200000, .i32⟩ : BufTy).Contents (Elt Ideal)) :
    FVec Ideal Cert.ReferenceIdeal.S100000x64 .f32 :=
  Host.scatterAdd (F := Ideal) (φ := .f32) Cert.ReferenceIdeal.scatter_S100000x64_S1200000x1_S1200000x64_1_0_0_1 (val_main_v40 (F := Ideal)) (val_main_v41 (F := Ideal) x2)
    (Host.gather Cert.ReferenceIdeal.gather_S100000x64_S1200000x1_S1200000x64_1_0_n_n_0_1_164 X (val_main_v38 (F := Ideal) x1))

/-- It is the reference's stage at the reference's first layer. -/
theorem msg2_ref (x0 : (⟨S100000, .i32⟩ : BufTy).Contents (Elt Ideal)) (x1 x2 : (⟨S1200000, .i32⟩ : BufTy).Contents (Elt Ideal)) (x4 : (⟨S10000x32, .f32⟩ : BufTy).Contents (Elt Ideal)) (x5 : (⟨S32x64, .f32⟩ : BufTy).Contents (Elt Ideal)) (x6 : (⟨S64, .f32⟩ : BufTy).Contents (Elt Ideal)) (x7 : (⟨S32x64, .f32⟩ : BufTy).Contents (Elt Ideal)) :
    val_main_v42 (F := Ideal) x0 x1 x2 x4 x5 x6 x7 = msg2 (val_main_v32 (F := Ideal) x0 x1 x2 x4 x5 x6 x7) x1 x2 := rfl

/-- The two count stages of the reference are one term. -/
theorem cnt_ref (x2 : (⟨Cert.ReferenceIdeal.S1200000, .i32⟩ : BufTy).Contents (Elt Ideal)) : val_main_v46 (F := Ideal) x2 = val_main_v20 (F := Ideal) x2 := rfl

set_option maxHeartbeats 8000000 in
/-- The second stretch's summed features, from ANY contents `W` at its entry: the stage of the three arrays it reads. -/
theorem msg_of (W : Valuation τ sig (Elt Ideal)) :
    (StableHlo.after hostOps1 W (Proc.devRef .tc main_call0_v37) : S100000x64.Idx → EReal)
      = msg2 (W (Proc.devRef .tc main_call0_v27) : S100000x64.Idx → EReal) (W (Proc.devRef .tc main_arg1)) (W (Proc.devRef .tc main_arg2)) := by
  dsimp only [hostOps1]
  after_results
  rfl

theorem msg_arr (c : Dev nD) : (V3 m ρ c main_call0_v37 : S100000x64.Idx → EReal)
    = msg2 (W2 m ρ c (Proc.devRef .tc main_call0_v27) : S100000x64.Idx → EReal) (W2 m ρ c (Proc.devRef .tc main_arg1)) (W2 m ρ c (Proc.devRef .tc main_arg2)) :=
  msg_of (W2 m ρ c)

variable (c : Dev nD)
  (hx1 : (W2 m ρ c (Proc.devRef .tc main_call0_v27) : S100000x64.Idx → EReal)
    = val_main_v32 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)))

include hx1 in
/-- The summed first-layer outputs are the reference's stage. -/
theorem msg : (V3 m ρ c main_call0_v37 : S100000x64.Idx → EReal)
    = val_main_v42 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  rw [msg_arr, hx1, Keep.w2_arg1, Keep.w2_arg2]
  exact (msg2_ref _ _ _ _ _ _ _).symm

include hx1 in
/-- The nodes' own features are the first layer's output. -/
theorem x : (V3 m ρ c main_call0_v27 : S100000x64.Idx → EReal)
    = val_main_v32 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  (Keep.w3_x1 m ρ c).trans hx1

/-- The reciprocal counts are the column the first launch read. -/
theorem inv_at (hinv0 : ∀ r : Fin 100000, (V1 m ρ c main_call0_v15 : S100000x1.Idx → EReal) (ix2 r (0 : Fin 1))
      = Ideal.div 1 (max (val_main_v20 (F := Ideal) (m ((c : Thread nD τ).loc main_arg2)) (ix1 r)) 1)) (r : Fin 100000) :
    (V3 m ρ c main_call0_v15 : S100000x1.Idx → EReal) (ix2 r (0 : Fin 1))
      = Ideal.div 1 (max (val_main_v46 (F := Ideal) (m ((c : Thread nD τ).loc main_arg2)) (ix1 r)) 1) := by
  have e : V3 m ρ c main_call0_v15 = V1 m ρ c main_call0_v15 := Keep.w3_inv m ρ c
  rw [e, cnt_ref]
  exact hinv0 r

set_option maxHeartbeats 8000000 in
/-- The second bias row, from any entry contents. -/
theorem bias_of (W : Valuation τ sig (Elt Ideal)) :
    (StableHlo.after hostOps1 W (Proc.devRef .tc main_call0_v38) : S1x64.Idx → EReal)
      = shapeCast S1x64 (W (Proc.devRef .tc main_arg9) : S64.Idx → EReal) shapeCasts_S64_S1x64 := by
  dsimp only [hostOps1]
  after_results
  rfl

theorem bias_arr : (V3 m ρ c main_call0_v38 : S1x64.Idx → EReal)
    = shapeCast S1x64 (W2 m ρ c (Proc.devRef .tc main_arg9) : S64.Idx → EReal) shapeCasts_S64_S1x64 :=
  bias_of (W2 m ρ c)

theorem bias (q : Fin 64) : (V3 m ρ c main_call0_v38 : S1x64.Idx → EReal) (ix2 (0 : Fin 1) q)
    = ((m ((c : Thread nD τ).loc main_arg9)) : S64.Idx → EReal) (ix1 q) := by
  rw [bias_arr, Keep.w2_arg9]
  exact shapeCast_a_1a_apply _ _ 0 q

theorem wl : V3 m ρ c main_arg8 = (m ((c : Thread nD τ).loc main_arg8)) := Keep.w3_arg8 m ρ c
theorem wr : V3 m ρ c main_arg10 = (m ((c : Thread nD τ).loc main_arg10)) := Keep.w3_arg10 m ρ c

end Cert.KernelIdeal.Hand.Host1

end
-- ==== Proof.Host2.lean ====
/-
  What the third launch finds. After the second launch the host sums the second layer's output rows over each graph's
  nodes, counts each graph's nodes, clamps the count at one, takes its reciprocal and reshapes it to a column, and
  reshapes the last bias to a row. The scatter-sums are the reference's own (`gsum` below is its stage as a function of the
  second layer's output), so once that output is the reference's second layer the per-graph sums are the reference's.
-/
import proofs.«113252_j88648124990386_2_alg».proof.Proof.Gen.KernelIdeal.Frame
import proofs.«113252_j88648124990386_2_alg».proof.Proof.Gen.ReferenceIdeal.Read
import proofs.«113252_j88648124990386_2_alg».proof.Proof.HostKeep
import proofs.«113252_j88648124990386_2_alg».proof.Proof.LibColumn
import proofs.«113252_j88648124990386_2_alg».proof.Proof.Sage
import Idealize.ShloMosaic.Lib.StableHlo.Run
import Idealize.ShloMosaic.Lib.ValueLayout

set_option maxRecDepth 16384

noncomputable section

namespace Cert.KernelIdeal.Hand.Host2

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read

variable (m : (ℓ : Loc nD τ sig) → Buf (Elt Ideal) ℓ) (ρ : Dev nD → PrngReg)

/-- The host's quotient of two arrays, at an index, is the quotient of the entries. -/
theorem hostDivf_at {s : Shape} (a b : FVec Ideal s .f32) (i : s.Idx) :
    Host.divf (F := Ideal) (φ := .f32) a b i = Ideal.div (a i) (b i) := rfl

/-- The per-graph feature sums, from the last layer's output `X` and the graph assignment. -/
def gsum (X : FVec Ideal Cert.ReferenceIdeal.S100000x64 .f32) (x3 : (⟨Cert.ReferenceIdeal.S100000, .i32⟩ : BufTy).Contents (Elt Ideal)) :
    FVec Ideal Cert.ReferenceIdeal.S1024x64 .f32 :=
  Host.scatterAdd (F := Ideal) (φ := .f32) Cert.ReferenceIdeal.scatter_S1024x64_S100000x1_S100000x64_1_0_0_1 (val_main_v59 (F := Ideal)) (val_main_v60 (F := Ideal) x3) X

/-- It is the reference's stage at the reference's second layer. -/
theorem gsum_ref (x0 : (⟨S100000, .i32⟩ : BufTy).Contents (Elt Ideal)) (x1 x2 : (⟨S1200000, .i32⟩ : BufTy).Contents (Elt Ideal)) (x3 : (⟨S100000, .i32⟩ : BufTy).Contents (Elt Ideal)) (x4 : (⟨S10000x32, .f32⟩ : BufTy).Contents (Elt Ideal)) (x5 : (⟨S32x64, .f32⟩ : BufTy).Contents (Elt Ideal)) (x6 : (⟨S64, .f32⟩ : BufTy).Contents (Elt Ideal)) (x7 : (⟨S32x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) :
    val_main_v61 (F := Ideal) x0 x1 x2 x3 x4 x5 x6 x7 x8 x9 x10 = gsum (val_main_v58 (F := Ideal) x0 x1 x2 x4 x5 x6 x7 x8 x9 x10) x3 := rfl

set_option maxHeartbeats 8000000 in
/-- The per-graph feature sums (from ANY contents `W` at the stretch's entry). -/
theorem gsum_of (W : Valuation τ sig (Elt Ideal)) :
    (StableHlo.after hostOps2 W (Proc.devRef .tc main_call0_v42) : S1024x64.Idx → EReal)
      = gsum ((W (Proc.devRef .tc main_call0_v39)) : S100000x64.Idx → EReal) (W (Proc.devRef .tc main_arg3)) := by
  dsimp only [hostOps2]
  after_results
  rfl

theorem gsum_arr (c : Dev nD) : (V5 m ρ c main_call0_v42 : S1024x64.Idx → EReal)
    = gsum (W4 m ρ c (Proc.devRef .tc main_call0_v39) : S100000x64.Idx → EReal) (W4 m ρ c (Proc.devRef .tc main_arg3)) :=
  gsum_of (W4 m ρ c)

/-- The contents after a concatenated line are those after its second part, from those after its first. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

set_option maxHeartbeats 4000000 in
/-- THE TAIL of the stretch, from ANY contents `F` after the count: row `g` of the reciprocal column is one over the
    count's entry clamped at one — the reshape read at `(g, 0)`, then the quotient, the clamp and the two broadcasts of the
    constant one at entry `g`. -/
theorem inv_tail (F : Valuation τ sig (Elt Ideal)) (g : Fin 1024) :
    (StableHlo.after (hostOps2.drop 10) F (Proc.devRef .tc main_call0_v51) : S1024x1.Idx → EReal) (ix2 g (0 : Fin 1))
      = Ideal.div 1 (max ((F (Proc.devRef .tc main_call0_v46) : S1024.Idx → EReal) (ix1 g)) 1) := by
  simp only [hostOps2, List.drop_succ_cons, List.drop_zero]
  after_results
  refine (Cert.Lib.Column.shapeCast_a_a1_apply _ _ g 0).trans ?_
  refine Eq.trans (b := Ideal.div (Ideal.ofBits .f32 0x3F800000#32)
    (max ((F (Proc.devRef .tc main_call0_v46) : S1024.Idx → EReal) (ix1 g)) (Ideal.ofBits .f32 0x3F800000#32))) rfl ?_
  rw [Cert.Sage.one_word]

set_option maxHeartbeats 4000000 in
/-- THE HEAD of the stretch, from ANY contents `W` at its entry: the count is the reference's count stage (the constant one summed over each graph's nodes). -/
theorem cnt_head (W : Valuation τ sig (Elt Ideal)) :
    (StableHlo.after (hostOps2.take 10) W (Proc.devRef .tc main_call0_v46) : S1024.Idx → EReal)
      = val_main_v65 (F := Ideal) (W (Proc.devRef .tc main_arg3)) := by
  simp only [hostOps2, List.take_succ_cons, List.take_zero]
  after_results
  rfl

/-- Row `g` of the reciprocal column, from ANY contents `W` at the stretch's entry. -/
theorem inv_of (W : Valuation τ sig (Elt Ideal)) (g : Fin 1024) :
    (StableHlo.after hostOps2 W (Proc.devRef .tc main_call0_v51) : S1024x1.Idx → EReal) (ix2 g (0 : Fin 1))
      = Ideal.div 1 (max (val_main_v65 (F := Ideal) (W (Proc.devRef .tc main_arg3)) (ix1 g)) 1) := by
  have e : StableHlo.after (hostOps2 : List (HloOp τ sig (Elt Ideal))) W
      = StableHlo.after (hostOps2.drop 10) (StableHlo.after (hostOps2.take 10) W) := by
    rw [← after_append, List.take_append_drop]
  rw [e, inv_tail, cnt_head]

set_option maxHeartbeats 8000000 in
/-- The last bias, as a row (from ANY contents `W` at the stretch's entry). -/
theorem bias_of (W : Valuation τ sig (Elt Ideal)) :
    (StableHlo.after hostOps2 W (Proc.devRef .tc main_call0_v52) : S1x10.Idx → EReal)
      = shapeCast S1x10 ((W (Proc.devRef .tc main_arg12)) : S10.Idx → EReal) shapeCasts_S10_S1x10 := by
  dsimp only [hostOps2]
  after_results
  rfl

theorem bias_arr (c : Dev nD) : (V5 m ρ c main_call0_v52 : S1x10.Idx → EReal)
    = shapeCast S1x10 (W4 m ρ c (Proc.devRef .tc main_arg12) : S10.Idx → EReal) shapeCasts_S10_S1x10 :=
  bias_of (W4 m ρ c)

variable (c : Dev nD)

/-- The per-graph sums are the reference's stage, once the second layer's output is the reference's. -/
theorem sums (hx2 : (W4 m ρ c (Proc.devRef .tc main_call0_v39) : S100000x64.Idx → EReal)
      = val_main_v58 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :
    (V5 m ρ c main_call0_v42 : S1024x64.Idx → EReal)
      = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [gsum_arr, hx2, Keep.w4_arg3]
  exact (gsum_ref _ _ _ _ _ _ _ _ _ _ _).symm

/-- Row `g` of the column the third launch finds. -/
theorem inv (g : Fin 1024) : (V5 m ρ c main_call0_v51 : S1024x1.Idx → EReal) (ix2 g (0 : Fin 1))
    = Ideal.div 1 (max (val_main_v65 (F := Ideal) (m ((c : Thread nD τ).loc main_arg3)) (ix1 g)) 1) := by
  have h := inv_of (W4 m ρ c) g
  rw [Keep.w4_arg3 m ρ c] at h
  exact h

theorem bias (q : Fin 10) : (V5 m ρ c main_call0_v52 : S1x10.Idx → EReal) (ix2 (0 : Fin 1) q)
    = ((m ((c : Thread nD τ).loc main_arg12)) : S10.Idx → EReal) (ix1 q) := by
  rw [bias_arr, Keep.w4_arg12]
  exact shapeCast_a_1a_apply _ _ 0 q

theorem w : V5 m ρ c main_arg11 = (m ((c : Thread nD τ).loc main_arg11)) := Keep.w5_arg11 m ρ c

end Cert.KernelIdeal.Hand.Host2

end
-- ==== Proof.KernelValue.lean ====
/-
  The idealized kernel's result is the reference's. Following the buffer contents through @main: the first launch finds the
  summed neighbour embeddings, the reciprocal counts, the embeddings, the weights and the bias, and leaves the reference's
  first layer (the launch's array lemma, then the reference's first layer read the same way); the second stretch and launch
  turn that into the reference's second layer; the third into the pooled projection, which is the result buffer's last
  contents. Every step is an equation between arrays named by the reference's stages of the ARGUMENT arrays, so the kernel's
  run ends with its result at the reference's result term of its own arguments.
-/
import proofs.«113252_j88648124990386_2_alg».proof.Proof.ValueRun
import proofs.«113252_j88648124990386_2_alg».proof.Proof.Region0
import proofs.«113252_j88648124990386_2_alg».proof.Proof.Region1
import proofs.«113252_j88648124990386_2_alg».proof.Proof.Region2
import proofs.«113252_j88648124990386_2_alg».proof.Proof.RefLayers
import proofs.«113252_j88648124990386_2_alg».proof.Proof.Host0
import proofs.«113252_j88648124990386_2_alg».proof.Proof.Host1
import proofs.«113252_j88648124990386_2_alg».proof.Proof.Host2

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.ReferenceIdeal.Read

variable (m : (ℓ : Loc nD τ sig) → Buf (Elt Ideal) ℓ) (ρ : Dev nD → PrngReg)

/-- After the first launch its output array holds the reference's first layer of the arguments. -/
theorem out1 (c : Dev nD) : (W2 m ρ c (Proc.devRef .tc main_call0_v27) : S100000x64.Idx → EReal)
    = val_main_v32 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (W2_arr m ρ c 6).trans ?_
  refine (R0.final (V1 m ρ) (val_main_v20 (F := Ideal) (m ((c : Thread nD τ).loc main_arg2))) ((m ((c : Thread nD τ).loc main_arg6)) : S64.Idx → EReal) c (Host0.inv m ρ c) (Host0.bias m ρ c)).trans ?_
  show Cert.Sage.layer 100000 32 64 (V1 m ρ c main_call0_v25 : S100000x32.Idx → EReal) _ (V1 m ρ c main_call0_v6 : S100000x32.Idx → EReal)
    (V1 m ρ c main_arg5 : S32x64.Idx → EReal) _ (V1 m ρ c main_arg7 : S32x64.Idx → EReal) = _
  rw [Host0.msg m ρ c, Host0.x m ρ c, Host0.wl m ρ c, Host0.wr m ρ c]
  exact (Cert.ReferenceIdeal.Layers.layer1 _ _ _ _ _ _ _).symm

/-- After the second launch its output array holds the reference's second layer. -/
theorem out2 (c : Dev nD) : (W4 m ρ c (Proc.devRef .tc main_call0_v39) : S100000x64.Idx → EReal)
    = val_main_v58 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h1 := out1 m ρ c
  refine (W4_arr m ρ c 6).trans ?_
  refine (R1.final (V3 m ρ) (val_main_v46 (F := Ideal) (m ((c : Thread nD τ).loc main_arg2))) ((m ((c : Thread nD τ).loc main_arg9)) : S64.Idx → EReal) c
    (Host1.inv_at m ρ c (Host0.inv m ρ c)) (Host1.bias m ρ c)).trans ?_
  show Cert.Sage.layer 100000 64 64 (V3 m ρ c main_call0_v37 : S100000x64.Idx → EReal) _ (V3 m ρ c main_call0_v27 : S100000x64.Idx → EReal)
    (V3 m ρ c main_arg8 : S64x64.Idx → EReal) _ (V3 m ρ c main_arg10 : S64x64.Idx → EReal) = _
  rw [Host1.msg m ρ c h1, Host1.x m ρ c h1, Host1.wl m ρ c, Host1.wr m ρ c]
  exact (Cert.ReferenceIdeal.Layers.layer2 _ _ _ _ _ _ _ _ _ _).symm

/-- After the third launch the result buffer holds the reference's result term. -/
theorem result (c : Dev nD) : (W6 m ρ c (Proc.devRef .tc main_v0) : S1024x10.Idx → EReal)
    = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have h2 := out2 m ρ c
  refine (W6_arr m ρ c 4).trans ?_
  refine (R2.final (V5 m ρ) (val_main_v65 (F := Ideal) (m ((c : Thread nD τ).loc main_arg3))) ((m ((c : Thread nD τ).loc main_arg12)) : S10.Idx → EReal) c (Host2.inv m ρ c) (Host2.bias m ρ c)).trans ?_
  show Cert.Sage.head 1024 64 10 (V5 m ρ c main_call0_v42 : S1024x64.Idx → EReal) _ (V5 m ρ c main_arg11 : S64x10.Idx → EReal) _ = _
  rw [Host2.sums m ρ c h2, Host2.w m ρ c]
  exact (Cert.ReferenceIdeal.Layers.head _ _ _ _ _ _ _ _ _ _ _ _ _).symm

/-- THE RUN, READ: every weakly fair execution of the idealized kernel terminates with its result at the reference's result
    term of the kernel's own argument arrays, the arguments unchanged. -/
theorem run : θ_run defs (onTc (τ := τ) (main (F := Ideal))) ⟨m, fun _ => 0, ρ⟩ (fun r => ∀ c : Dev nD,
      r.2.mem ((c.tc : Thread nD τ).loc main_v0) = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (result m ρ c), (h c).2⟩) (run_last m ρ)

end Cert.KernelIdeal.Hand

end
-- ==== Proof.lean ====
/-
  A two-layer mean-aggregating graph network with a pooled linear head, fused into three launches, against its plain
  array reference, over the extended reals.

  Both programs gather each node's embedding, and for each layer sum the neighbours' features over the incoming edges and
  count the neighbours with the same gathers and scatter-sums. They differ in the dense part. The reference divides the
  summed features by the count clamped at one, multiplies by the left weights, adds the bias, adds the node's own features
  times the right weights, and clamps at zero; the kernel multiplies the summed features by the RECIPROCAL of the clamped
  count (computed once, for both layers), forms the two products on the matrix unit block by block of 5000 nodes, adds
  them, adds the bias last and clamps. The head divides, respectively multiplies by the reciprocal of, the clamped graph
  sizes before one product and a bias. At the ideal values the two sides are one function: a count clamped at one is
  never zero, so dividing by it is multiplying by its inverse at every extended real, infinite ones included; the order of
  the three summands is commutativity and associativity of `+`; the blocking of the rows and the narrowing on the way into
  the matrix unit leave no trace. No distributive law is needed, so the precondition (finite inputs) is never opened.

  The frames of the two kernel programs are the generated frame certificates; the reference's frame is its generated run
  with the result dropped; the idealization rewrote nothing. For the equivalence both runs end at the reference's result
  term of the argument arrays: the reference's by its generated run, the kernel's by following the buffer contents through
  its three launches (Proof/KernelValue.lean).
-/
import proofs.«113252_j88648124990386_2_alg».proof.Defs
import proofs.«113252_j88648124990386_2_alg».proof.Proof.Gen.Kernel
import proofs.«113252_j88648124990386_2_alg».proof.Proof.Gen.Kernel.Skeleton
import proofs.«113252_j88648124990386_2_alg».proof.Proof.Gen.Kernel.Launch
import proofs.«113252_j88648124990386_2_alg».proof.Proof.Gen.Kernel.Points
import proofs.«113252_j88648124990386_2_alg».proof.Proof.Gen.Kernel.Frame
import proofs.«113252_j88648124990386_2_alg».proof.Proof.Gen.KernelIdeal
import proofs.«113252_j88648124990386_2_alg».proof.Proof.Gen.KernelIdeal.Skeleton
import proofs.«113252_j88648124990386_2_alg».proof.Proof.Gen.KernelIdeal.Launch
import proofs.«113252_j88648124990386_2_alg».proof.Proof.Gen.KernelIdeal.Points
import proofs.«113252_j88648124990386_2_alg».proof.Proof.Gen.KernelIdeal.Frame
import proofs.«113252_j88648124990386_2_alg».proof.Proof.Gen.ReferenceIdeal
import proofs.«113252_j88648124990386_2_alg».proof.Proof.Gen.Pre_finite_inputs
import proofs.«113252_j88648124990386_2_alg».proof.Proof.Gen.ReferenceIdeal.Run
import proofs.«113252_j88648124990386_2_alg».proof.Proof.Gen.ReferenceIdeal.Read
import proofs.«113252_j88648124990386_2_alg».proof.Proof.KernelValue
import Idealize.ShloMosaic.Adequacy
import Idealize.ShloMosaic.Init

noncomputable section

namespace Cert.Proof

open Idealize.ShloMosaic Idealize.SL.Sem

/-- Run from memories that agree on the arguments, the idealized kernel and the idealized reference both end with the
    reference's result term of those arguments. -/
theorem algebraic : Cert.algebraic_KernelIdeal_ReferenceIdeal := by
  intro m ρ m' ρ' _ hagree
  refine ⟨fun c => Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelIdeal.Hand.run m ρ, ?_⟩
  refine (θ_run Cert.ReferenceIdeal.defs _ _).mono (fun _ h c => ⟨(h c).1.trans ?_, (h c).2⟩) (Cert.ReferenceIdeal.Value.run (F := Ideal) m' ρ')
  obtain ⟨e0, e1, e2, e3, e4, e5, e6, e7, e8, e9, e10, e11, e12⟩ := hagree c
  rw [Cert.ReferenceIdeal.Read.val_main_v74_eq, e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
